-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x1024x1024 : Shape := ⟨4, ![1, 32, 1024, 1024]⟩
abbrev S1x1024x1024 : Shape := ⟨3, ![1, 1024, 1024]⟩
abbrev S_ : Shape := ⟨0, ![]⟩

class Facts : Prop where
  bcast_S_S1x32x1024x1024 : S_.BroadcastsInDim S1x32x1024x1024 (![] : Fin 0 → Fin S1x32x1024x1024.rank)
  reducesTo_S1x32x1024x1024_S_d0_1_2_3 : S1x32x1024x1024.ReducesTo [0, 1, 2, 3] S_
  h_S_ : 0 < S_.numel

variable [Facts]

def fn {F : FTy → Type} [FloatOps F] (main_arg0 : FVec F S1x32x1024x1024 .f32) (main_arg1 : FVec F S1x32x1024x1024 .f32) (main_arg2 : IVec S1x1024x1024 32) : IVec S_ 1 :=
  let main_v0 : FVec F S1x32x1024x1024 .f32 := Host.absf main_arg0
  let main_cst : FVec F S_ .f32 := constant S_ .f32 0x7F800000#32
  let main_v1 : FVec F S1x32x1024x1024 .f32 := broadcastInDim S1x32x1024x1024 ![] bcast_S_S1x32x1024x1024 main_cst
  let main_v2 : IVec S1x32x1024x1024 1 := cmpf .olt main_v0 main_v1
  let main_c : IVec S_ 1 := constantI S_ 1 1#1
  let main_v3 : IVec S_ 1 := (fun x v => Host.reduce IntOp.andi x v reducesTo_S1x32x1024x1024_S_d0_1_2_3 h_S_) main_v2 main_c
  let main_v4 : FVec F S1x32x1024x1024 .f32 := Host.absf main_arg1
  let main_cst_0 : FVec F S_ .f32 := constant S_ .f32 0x7F800000#32
  let main_v5 : FVec F S1x32x1024x1024 .f32 := broadcastInDim S1x32x1024x1024 ![] bcast_S_S1x32x1024x1024 main_cst_0
  let main_v6 : IVec S1x32x1024x1024 1 := cmpf .olt main_v4 main_v5
  let main_c_1 : IVec S_ 1 := constantI S_ 1 1#1
  let main_v7 : IVec S_ 1 := (fun x v => Host.reduce IntOp.andi x v reducesTo_S1x32x1024x1024_S_d0_1_2_3 h_S_) main_v6 main_c_1
  let main_v8 : IVec S_ 1 := andi main_v3 main_v7
  main_v8
-- ==== Kernel.lean ====
abbrev S1x32x1024x1024 : Shape := ⟨4, ![1, 32, 1024, 1024]⟩
abbrev S1x1024x1024 : Shape := ⟨3, ![1, 1024, 1024]⟩
abbrev S32x1048576 : Shape := ⟨2, ![32, 1048576]⟩
abbrev S1x1048576 : Shape := ⟨2, ![1, 1048576]⟩
abbrev S2x128x1 : Shape := ⟨3, ![2, 128, 1]⟩
abbrev S2x1x1 : Shape := ⟨3, ![2, 1, 1]⟩
abbrev S32x16384 : Shape := ⟨2, ![32, 16384]⟩
abbrev S1x16384 : Shape := ⟨2, ![1, 16384]⟩
abbrev S1x128x1 : Shape := ⟨3, ![1, 128, 1]⟩
abbrev S1x1x1 : Shape := ⟨3, ![1, 1, 1]⟩
abbrev S128x1 : Shape := ⟨2, ![128, 1]⟩
abbrev S1x1 : Shape := ⟨2, ![1, 1]⟩
abbrev S16384 : Shape := ⟨1, ![16384]⟩
abbrev S128x16384 : Shape := ⟨2, ![128, 16384]⟩
abbrev S2x16384 : Shape := ⟨2, ![2, 16384]⟩
abbrev S128x2 : Shape := ⟨2, ![128, 2]⟩
abbrev S1 : Shape := ⟨1, ![1]⟩
abbrev S_ : Shape := ⟨0, ![]⟩
abbrev S100x1 : Shape := ⟨2, ![100, 1]⟩
abbrev S100 : Shape := ⟨1, ![100]⟩

abbrev nBuf : Space → Nat
  | .hbm => 49
  | .vmem => 14
  | .smem => 0
  | _ => 0

abbrev bufTy : (tb : Table) → Fin (tcTables nBuf tb) → BufTy
  | .hbm, ⟨0, _⟩ => ⟨S1x32x1024x1024, .f32⟩
  | .hbm, ⟨1, _⟩ => ⟨S1x32x1024x1024, .f32⟩
  | .hbm, ⟨2, _⟩ => ⟨S1x1024x1024, .i32⟩
  | .hbm, ⟨3, _⟩ => ⟨S32x1048576, .f32⟩
  | .hbm, ⟨4, _⟩ => ⟨S32x1048576, .f32⟩
  | .hbm, ⟨5, _⟩ => ⟨S1x1048576, .i32⟩
  | .hbm, ⟨6, _⟩ => ⟨S2x128x1, .f32⟩
  | .hbm, ⟨7, _⟩ => ⟨S2x128x1, .f32⟩
  | .hbm, ⟨8, _⟩ => ⟨S2x1x1, .f32⟩
  | .hbm, ⟨9, _⟩ => ⟨S2x1x1, .f32⟩
  | .hbm, ⟨10, _⟩ => ⟨S_, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S100x1, .f32⟩
  | .hbm, ⟨19, _⟩ => ⟨S100, .f32⟩
  | .hbm, ⟨20, _⟩ => ⟨S100, .f32⟩
  | .hbm, ⟨21, _⟩ => ⟨S100, .f32⟩
  | .hbm, ⟨22, _⟩ => ⟨S100x1, .f32⟩
  | .hbm, ⟨23, _⟩ => ⟨S100, .f32⟩
  | .hbm, ⟨24, _⟩ => ⟨S100, .f32⟩
  | .hbm, ⟨25, _⟩ => ⟨S100, .f32⟩
  | .hbm, ⟨26, _⟩ => ⟨S_, .f32⟩
  | .hbm, ⟨27, _⟩ => ⟨S100, .f32⟩
  | .hbm, ⟨28, _⟩ => ⟨S100, .i1⟩
  | .hbm, ⟨29, _⟩ => ⟨S_, .f32⟩
  | .hbm, ⟨30, _⟩ => ⟨S100, .f32⟩
  | .hbm, ⟨31, _⟩ => ⟨S100, .i1⟩
  | .hbm, ⟨32, _⟩ => ⟨S_, .f32⟩
  | .hbm, ⟨33, _⟩ => ⟨S_, .f32⟩
  | .hbm, ⟨34, _⟩ => ⟨S100, .f32⟩
  | .hbm, ⟨35, _⟩ => ⟨S100, .f32⟩
  | .hbm, ⟨36, _⟩ => ⟨S100, .f32⟩
  | .hbm, ⟨37, _⟩ => ⟨S100, .f32⟩
  | .hbm, ⟨38, _⟩ => ⟨S100, .f32⟩
  | .hbm, ⟨39, _⟩ => ⟨S_, .f32⟩
  | .hbm, ⟨40, _⟩ => ⟨S_, .f32⟩
  | .hbm, ⟨41, _⟩ => ⟨S100, .f32⟩
  | .hbm, ⟨42, _⟩ => ⟨S100, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S1x16384, .i32⟩
  | .local _ .vmem, ⟨5, _⟩ => ⟨S1x16384, .i32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | _, _ => ⟨S1x32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1x32x1024x1024_S32x1048576 : S1x32x1024x1024.ShapeCasts S32x1048576
  shapeCasts_S1x1024x1024_S1x1048576 : S1x1024x1024.ShapeCasts S1x1048576
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  reduces_S32x16384_S16384 : S32x16384.Reduces [0] S16384
  shapeCasts_S16384_S1x16384 : S16384.ShapeCasts S1x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  iota_S128x1_d0_w32 : S128x1.Iotas .tc 32 [0]
  broadcasts_S128x1_S128x16384 : S128x1.Broadcasts S128x16384
  broadcasts_S1x16384_S128x16384 : S1x16384.Broadcasts S128x16384
  natLt_1_32 : 1 < 32
  bitsLt_bf16_f32 : FTy.bits .bf16 < FTy.bits .f32
  concatenates_S1x16384_S1x16384_S2x16384_d0 : Shape.Concatenates [S1x16384, S1x16384] S2x16384 0
  reduces_S1x16384_S1 : S1x16384.Reduces [1] S1
  shapeCasts_S1_S1x1 : S1.ShapeCasts S1x1
  slices_S128x2_o0_0_S128x1 : S128x2.Slices ![0, 0] S128x1
  slices_S128x2_o0_1_S128x1 : S128x2.Slices ![0, 1] S128x1
  reducesTo_S2x128x1_S128x1_d0 : S2x128x1.ReducesTo [0] S128x1
  h_S_ : 0 < S_.numel
  reducesTo_S2x1x1_S_d0_1_2 : S2x1x1.ReducesTo [0, 1, 2] S_
  slices_S128x1_S100x1_0_0 : S128x1.Slices ![0, 0] S100x1
  shapeCasts_S100x1_S100 : S100x1.ShapeCasts S100
  bcast_S_S100 : S_.BroadcastsInDim S100 (![] : Fin 0 → Fin S100.rank)
  reducesTo_S100_S_d0 : S100.ReducesTo [0] S_
  dot_S128x16384_S2x16384_S128x2_1_1_0_0_n_n_wf : DotDims.WF S128x16384 S2x16384 S128x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S32x1048576.size a
  hwx0_0 : ∀ i : grid0.Coords, EltTy.bits .f32 = 32 ∨ (Rect.block (s := S32x1048576) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S32x1048576.size a
  hwx0_1 : ∀ i : grid0.Coords, EltTy.bits .f32 = 32 ∨ (Rect.block (s := S32x1048576) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x1048576.size a
  hwx0_2 : ∀ i : grid0.Coords, EltTy.bits .i32 = 32 ∨ (Rect.block (s := S1x1048576) S1x16384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S2x128x1.size a
  hwx0_4 : ∀ i : grid0.Coords, EltTy.bits .f32 = 32 ∨ (Rect.block (s := S2x128x1) S1x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S128x16384_S2x16384_S128x2_1_1_0_0_n_n : DotDims S128x16384 S2x16384 S128x2 where
  lhsContracting := [1]
  rhsContracting := [1]
  lhsNonContracting := [0]
  rhsNonContracting := [0]
  lhsBatch := []
  rhsBatch := []
  wf := dot_S128x16384_S2x16384_S128x2_1_1_0_0_n_n_wf

abbrev win0_0 : Pipeline.Window sig grid0 :=
  Pipeline.Window.ofSpec (Memref.whole main_v0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_3) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x32x1024x1024 : Shape := ⟨4, ![1, 32, 1024, 1024]⟩
abbrev S1x1024x1024 : Shape := ⟨3, ![1, 1024, 1024]⟩
abbrev S32x1048576 : Shape := ⟨2, ![32, 1048576]⟩
abbrev S1048576x32 : Shape := ⟨2, ![1048576, 32]⟩
abbrev S_ : Shape := ⟨0, ![]⟩
abbrev S1048576 : Shape := ⟨1, ![1048576]⟩
abbrev S100 : Shape := ⟨1, ![100]⟩
abbrev S1048576x1 : Shape := ⟨2, ![1048576, 1]⟩

abbrev nBuf : Space → Nat
  | .hbm => 121
  | .vmem => 0
  | .smem => 0
  | _ => 0

abbrev bufTy : (tb : Table) → Fin (tcTables nBuf tb) → BufTy
  | .hbm, ⟨0, _⟩ => ⟨S1x32x1024x1024, .f32⟩
  | .hbm, ⟨1, _⟩ => ⟨S1x32x1024x1024, .f32⟩
  | .hbm, ⟨2, _⟩ => ⟨S1x1024x1024, .i32⟩
  | .hbm, ⟨3, _⟩ => ⟨S32x1048576, .f32⟩
  | .hbm, ⟨4, _⟩ => ⟨S1048576x32, .f32⟩
  | .hbm, ⟨5, _⟩ => ⟨S32x1048576, .f32⟩
  | .hbm, ⟨6, _⟩ => ⟨S1048576x32, .f32⟩
  | .hbm, ⟨7, _⟩ => ⟨S1048576x32, .f32⟩
  | .hbm, ⟨8, _⟩ => ⟨S_, .f32⟩
  | .hbm, ⟨9, _⟩ => ⟨S1048576x32, .f32⟩
  | .hbm, ⟨10, _⟩ => ⟨S1048576x32, .f32⟩
  | .hbm, ⟨11, _⟩ => ⟨S1048576x32, .f32⟩
  | .hbm, ⟨12, _⟩ => ⟨S_, .f32⟩
  | .hbm, ⟨13, _⟩ => ⟨S1048576, .f32⟩
  | .hbm, ⟨14, _⟩ => ⟨S1048576, .f32⟩
  | .hbm, ⟨15, _⟩ => ⟨S1048576, .i32⟩
  | .hbm, ⟨16, _⟩ => ⟨S_, .i32⟩
  | .hbm, ⟨17, _⟩ => ⟨S1048576, .i32⟩
  | .hbm, ⟨18, _⟩ => ⟨S1048576, .i1⟩
  | .hbm, ⟨19, _⟩ => ⟨S1048576, .i1⟩
  | .hbm, ⟨20, _⟩ => ⟨S1048576, .i32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S1048576, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S_, .f32⟩
  | .hbm, ⟨29, _⟩ => ⟨S1048576, .f32⟩
  | .hbm, ⟨30, _⟩ => ⟨S1048576, .i1⟩
  | .hbm, ⟨31, _⟩ => ⟨S_, .f32⟩
  | .hbm, ⟨32, _⟩ => ⟨S1048576, .f32⟩
  | .hbm, ⟨33, _⟩ => ⟨S1048576, .i1⟩
  | .hbm, ⟨34, _⟩ => ⟨S1048576, .i1⟩
  | .hbm, ⟨35, _⟩ => ⟨S_, .f32⟩
  | .hbm, ⟨36, _⟩ => ⟨S1048576, .f32⟩
  | .hbm, ⟨37, _⟩ => ⟨S1048576, .f32⟩
  | .hbm, ⟨38, _⟩ => ⟨S1048576, .f32⟩
  | .hbm, ⟨39, _⟩ => ⟨S1048576, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1048576, .i32⟩
  | .hbm, ⟨44, _⟩ => ⟨S1048576, .i32⟩
  | .hbm, ⟨45, _⟩ => ⟨S_, .i32⟩
  | .hbm, ⟨46, _⟩ => ⟨S1048576, .i32⟩
  | .hbm, ⟨47, _⟩ => ⟨S1048576, .i32⟩
  | .hbm, ⟨48, _⟩ => ⟨S1048576, .i1⟩
  | .hbm, ⟨49, _⟩ => ⟨S1048576, .f32⟩
  | .hbm, ⟨50, _⟩ => ⟨S_, .f32⟩
  | .hbm, ⟨51, _⟩ => ⟨S100, .f32⟩
  | .hbm, ⟨52, _⟩ => ⟨S_, .i32⟩
  | .hbm, ⟨53, _⟩ => ⟨S1048576, .i32⟩
  | .hbm, ⟨54, _⟩ => ⟨S1048576, .i1⟩
  | .hbm, ⟨55, _⟩ => ⟨S_, .i32⟩
  | .hbm, ⟨56, _⟩ => ⟨S1048576, .i32⟩
  | .hbm, ⟨57, _⟩ => ⟨S1048576, .i32⟩
  | .hbm, ⟨58, _⟩ => ⟨S1048576, .i32⟩
  | .hbm, ⟨59, _⟩ => ⟨S1048576x1, .i32⟩
  | .hbm, ⟨60, _⟩ => ⟨S100, .f32⟩
  | .hbm, ⟨61, _⟩ => ⟨S100, .f32⟩
  | .hbm, ⟨62, _⟩ => ⟨S100, .f32⟩
  | .hbm, ⟨63, _⟩ => ⟨S_, .f32⟩
  | .hbm, ⟨64, _⟩ => ⟨S1048576, .f32⟩
  | .hbm, ⟨65, _⟩ => ⟨S1048576, .i1⟩
  | .hbm, ⟨66, _⟩ => ⟨S_, .f32⟩
  | .hbm, ⟨67, _⟩ => ⟨S1048576, .f32⟩
  | .hbm, ⟨68, _⟩ => ⟨S1048576, .i1⟩
  | .hbm, ⟨69, _⟩ => ⟨S1048576, .i1⟩
  | .hbm, ⟨70, _⟩ => ⟨S_, .f32⟩
  | .hbm, ⟨71, _⟩ => ⟨S1048576, .f32⟩
  | .hbm, ⟨72, _⟩ => ⟨S1048576, .f32⟩
  | .hbm, ⟨73, _⟩ => ⟨S1048576, .f32⟩
  | .hbm, ⟨74, _⟩ => ⟨S1048576, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1048576, .i32⟩
  | .hbm, ⟨79, _⟩ => ⟨S1048576, .i32⟩
  | .hbm, ⟨80, _⟩ => ⟨S_, .i32⟩
  | .hbm, ⟨81, _⟩ => ⟨S1048576, .i32⟩
  | .hbm, ⟨82, _⟩ => ⟨S1048576, .i32⟩
  | .hbm, ⟨83, _⟩ => ⟨S1048576, .i1⟩
  | .hbm, ⟨84, _⟩ => ⟨S1048576, .f32⟩
  | .hbm, ⟨85, _⟩ => ⟨S_, .f32⟩
  | .hbm, ⟨86, _⟩ => ⟨S100, .f32⟩
  | .hbm, ⟨87, _⟩ => ⟨S_, .i32⟩
  | .hbm, ⟨88, _⟩ => ⟨S1048576, .i32⟩
  | .hbm, ⟨89, _⟩ => ⟨S1048576, .i1⟩
  | .hbm, ⟨90, _⟩ => ⟨S_, .i32⟩
  | .hbm, ⟨91, _⟩ => ⟨S1048576, .i32⟩
  | .hbm, ⟨92, _⟩ => ⟨S1048576, .i32⟩
  | .hbm, ⟨93, _⟩ => ⟨S1048576, .i32⟩
  | .hbm, ⟨94, _⟩ => ⟨S1048576x1, .i32⟩
  | .hbm, ⟨95, _⟩ => ⟨S100, .f32⟩
  | .hbm, ⟨96, _⟩ => ⟨S100, .f32⟩
  | .hbm, ⟨97, _⟩ => ⟨S100, .f32⟩
  | .hbm, ⟨98, _⟩ => ⟨S_, .f32⟩
  | .hbm, ⟨99, _⟩ => ⟨S100, .f32⟩
  | .hbm, ⟨100, _⟩ => ⟨S100, .i1⟩
  | .hbm, ⟨101, _⟩ => ⟨S_, .f32⟩
  | .hbm, ⟨102, _⟩ => ⟨S100, .f32⟩
  | .hbm, ⟨103, _⟩ => ⟨S100, .i1⟩
  | .hbm, ⟨104, _⟩ => ⟨S_, .f32⟩
  | .hbm, ⟨105, _⟩ => ⟨S_, .f32⟩
  | .hbm, ⟨106, _⟩ => ⟨S100, .f32⟩
  | .hbm, ⟨107, _⟩ => ⟨S100, .f32⟩
  | .hbm, ⟨108, _⟩ => ⟨S100, .f32⟩
  | .hbm, ⟨109, _⟩ => ⟨S100, .f32⟩
  | .hbm, ⟨110, _⟩ => ⟨S100, .f32⟩
  | .hbm, ⟨111, _⟩ => ⟨S_, .f32⟩
  | .hbm, ⟨112, _⟩ => ⟨S_, .f32⟩
  | .hbm, ⟨113, _⟩ => ⟨S100, .f32⟩
  | .hbm, ⟨114, _⟩ => ⟨S100, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S1x32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_c_7 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_14 : Ref sig .tc := ⟨.hbm, 75, rfl⟩
abbrev main_c_15 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_16 : Ref sig .tc := ⟨.hbm, 85, rfl⟩
abbrev main_v54 : Ref sig .tc := ⟨.hbm, 86, rfl⟩
abbrev main_c_17 : Ref sig .tc := ⟨.hbm, 87, rfl⟩
abbrev main_v55 : Ref sig .tc := ⟨.hbm, 88, rfl⟩
abbrev main_v56 : Ref sig .tc := ⟨.hbm, 89, rfl⟩
abbrev main_c_18 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_19 : Ref sig .tc := ⟨.hbm, 98, rfl⟩
abbrev main_v64 : Ref sig .tc := ⟨.hbm, 99, rfl⟩
abbrev main_v65 : Ref sig .tc := ⟨.hbm, 100, rfl⟩
abbrev main_cst_20 : Ref sig .tc := ⟨.hbm, 101, rfl⟩
abbrev main_v66 : Ref sig .tc := ⟨.hbm, 102, rfl⟩
abbrev main_v67 : Ref sig .tc := ⟨.hbm, 103, rfl⟩
abbrev main_cst_21 : Ref sig .tc := ⟨.hbm, 104, rfl⟩
abbrev main_call2_v0 : Ref sig .tc := ⟨.hbm, 105, rfl⟩
abbrev main_call2_v1 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_22 : Ref sig .tc := ⟨.hbm, 111, rfl⟩
abbrev main_call3_v0 : Ref sig .tc := ⟨.hbm, 112, rfl⟩
abbrev main_call3_v1 : Ref sig .tc := ⟨.hbm, 113, rfl⟩
abbrev main_v72 : Ref sig .tc := ⟨.hbm, 114, rfl⟩
abbrev main_cst_23 : Ref sig .tc := ⟨.hbm, 115, rfl⟩
abbrev main_v73 : Ref sig .tc := ⟨.hbm, 116, rfl⟩
abbrev main_cst_24 : Ref sig .tc := ⟨.hbm, 117, rfl⟩
abbrev main_v74 : Ref sig .tc := ⟨.hbm, 118, rfl⟩
abbrev main_cst_25 : Ref sig .tc := ⟨.hbm, 119, rfl⟩
abbrev main_v75 : Ref sig .tc := ⟨.hbm, 120, rfl⟩

abbrev nD : Nat := 1
abbrev τ : Topo := Topo.v7x

variable {F : FTy → Type} [FloatOps F]

class Facts₀ : Prop where
  shapeCasts_S1x32x1024x1024_S32x1048576 : S1x32x1024x1024.ShapeCasts S32x1048576
  transposes_S32x1048576_S1048576x32_1_0 : S32x1048576.Transposes [1, 0] S1048576x32
  bcast_S_S1048576x32 : S_.BroadcastsInDim S1048576x32 (![] : Fin 0 → Fin S1048576x32.rank)
  reducesTo_S1048576x32_S1048576_d1 : S1048576x32.ReducesTo [1] S1048576
  h_S_ : 0 < S_.numel
  shapeCasts_S1x1024x1024_S1048576 : S1x1024x1024.ShapeCasts S1048576
  bcast_S_S1048576 : S_.BroadcastsInDim S1048576 (![] : Fin 0 → Fin S1048576.rank)
  natLt_1_32 : 1 < 32
  reducesTo_S1048576_S_d0 : S1048576.ReducesTo [0] S_
  bcast_S_S100 : S_.BroadcastsInDim S100 (![] : Fin 0 → Fin S100.rank)
  bcast_S1048576_S1048576x1_0 : S1048576.BroadcastsInDim S1048576x1 (![0] : Fin 1 → Fin S1048576x1.rank)
  reducesTo_S100_S_d0 : S100.ReducesTo [0] S_
  scatter_S100_S1048576x1_S1048576_n_0_0_1_wf : ScatterDims.WF S100 S1048576x1 S1048576 [] [0] [0] 1

variable [Facts₀]

def scatter_S100_S1048576x1_S1048576_n_0_0_1 : ScatterDims S100 S1048576x1 S1048576 where
  updateWindowDims := []
  insertedWindowDims := [0]
  scatterDimsToOperandDims := [0]
  indexVectorDim := 1
  wf := scatter_S100_S1048576x1_S1048576_n_0_0_1_wf

class Facts : Prop extends Facts₀ where

variable [Facts]
-- ==== Proof.Spec.lean ====
/-
  The loss as one function of the flattened feature arrays and the flattened label array.

  A pixel is a position p < 1048576.  Its two channel vectors are the columns x(·,p), y(·,p) of the
  [32, 1048576] feature arrays, and its label is g(p).  The pixel's distance is
      D(p) = sqrt (Σ_k (x(k,p) − y(k,p) + ε)²),
  it is "in range" when 0 ≤ D(p) ≤ 1, and its bin is ⌊100·D(p)⌋ converted to a 32-bit integer and
  clamped to [0, 99].  A pixel is positive when its label is 0 and negative otherwise.  The positive
  histogram at bin b counts the positive in-range pixels of bin b, the negative one likewise, and the two
  sizes count all positive (negative) pixels.  Everything here is stated on the extended reals with the
  exact operations, one pixel at a time; the loss itself is a function of the two normalised histograms.
-/
import Idealize.ShloMosaic.PureOps.Ideal
import Idealize.ShloMosaic.PureOps.Ideal.Laws
import Idealize.ShloMosaic.Lib.ValueIdx

noncomputable section

open scoped BigOperators

namespace Cert.Hist

open Idealize.ShloMosaic Idealize.ShloMosaic.ValueIdx

/-- The number of pixels. -/
abbrev P : Nat := 1048576

/-- The flattened feature arrays' shape, the flattened labels' shape, the histogram's shape. -/
abbrev SX : Shape := ⟨2, ![32, 1048576]⟩
abbrev SG : Shape := ⟨1, ![1048576]⟩
abbrev SH : Shape := ⟨1, ![100]⟩
abbrev S0 : Shape := ⟨0, ![]⟩

/-- The float constants of both programs, by their words. -/
def eps : EReal := FloatOps.ofBits (F := Ideal) .f32 0x358637BD#32
def fzero : EReal := FloatOps.ofBits (F := Ideal) .f32 0x00000000#32
def fone : EReal := FloatOps.ofBits (F := Ideal) .f32 0x3F800000#32
def fhundred : EReal := FloatOps.ofBits (F := Ideal) .f32 0x42C80000#32

/-- One channel's contribution to a pixel's squared distance. -/
def sq (a b : EReal) : EReal := (a - b + eps) * (a - b + eps)

/-- A pixel's distance from its two channel vectors. -/
def dist (a b : Fin 32 → EReal) : EReal := Ideal.sqrt (∑ k : Fin 32, sq (a k) (b k))

/-- Whether a distance lies between zero and one, as a bit. -/
def inRange (d : EReal) : BitVec 1 := IntOp.andi (Ideal.cmp .oge d fzero) (Ideal.cmp .ole d fone)

/-- The bin of a distance: the floor of a hundred times it, as a 32-bit integer, clamped to [0, 99]. -/
def binOf (d : EReal) : BitVec 32 :=
  IntOp.minsi 99#32 (IntOp.maxsi 0#32 (Ideal.fptosi 32 (Ideal.liftRound Int.floor (d * fhundred))))

/-- A label is positive when it is zero; negative otherwise. -/
def isPos (g : BitVec 32) : BitVec 1 := IntOp.cmpi .eq g 0#32
def isNeg (g : BitVec 32) : BitVec 1 := IntOp.xori (isPos g) 1#1

/-- A bit as the real one or zero. -/
def wt (c : BitVec 1) : EReal := Scalar.select c fone fzero

/-- A bit counted: one or zero, through its 32-bit extension read as a signed integer. -/
def cnt (c : BitVec 1) : EReal := (((c.setWidth 32).toInt : ℝ) : EReal)

/-- Whether bin b is row r of the padded histogram, as the real one or zero. -/
def hot (r : Nat) (b : BitVec 32) : EReal := cnt (IntOp.cmpi .eq (BitVec.ofNat 32 r) b)

section
variable (x y : SX.Idx → EReal) (g : SG.Idx → BitVec 32)

/-- Pixel p's distance. -/
def D (p : Fin P) : EReal := dist (fun k => x (ix2 k p)) (fun k => y (ix2 k p))

/-- Pixel p's weight in the positive histogram, and in the negative one. -/
def wPos (p : Fin P) : EReal := wt (IntOp.andi (isPos (g (ix1 p))) (inRange (D x y p)))
def wNeg (p : Fin P) : EReal := wt (IntOp.andi (isNeg (g (ix1 p))) (inRange (D x y p)))

/-- The two histograms at row r (of 128; rows 100 … 127 stay empty because bins are clamped). -/
def histPos (r : Nat) : EReal := ∑ p : Fin P, hot r (binOf (D x y p)) * wPos x y g p
def histNeg (r : Nat) : EReal := ∑ p : Fin P, hot r (binOf (D x y p)) * wNeg x y g p

/-- The two sizes. -/
def sizePos : EReal := ∑ p : Fin P, cnt (isPos (g (ix1 p)))
def sizeNeg : EReal := ∑ p : Fin P, cnt (isNeg (g (ix1 p)))

/-- The normalised histograms, as vectors of 100 bins. -/
def normPos : SH.Idx → EReal := fun b => Ideal.div (histPos x y g (b 0).val) (sizePos g)
def normNeg : SH.Idx → EReal := fun b => Ideal.div (histNeg x y g (b 0).val) (sizeNeg g)
end

end Cert.Hist

end
-- ==== Proof.Tail.lean ====
/-
  From the two normalised histograms to the loss.  With p the positive and q the negative normalised histogram
  (100 bins each), the loss is
      1 + (Σ_b  [q_b > 0] · q_b · (log (if q_b > 0 then q_b else 1) − p_b)) / 100,
  the mean over the bins of the pointwise divergence, plus one.  Both programs end with exactly these
  operations on their own p and q, so the loss is stated once, as one function, and never opened.
-/
import Idealize.ShloMosaic.PureOps.Ideal
import Idealize.ShloMosaic.PureOps.Ideal.Laws
import proofs.«134737_j32444182954404_2_alg».proof.Proof.Spec

noncomputable section

namespace Cert.Hist

open Idealize.ShloMosaic

/-- The shape facts the operations below cite. -/
theorem tail_bcast : S0.BroadcastsInDim SH (![] : Fin 0 → Fin SH.rank) := by decide
theorem tail_red : SH.ReducesTo [0] S0 := by decide
theorem tail_pos : 0 < S0.numel := by decide

/-- The loss from the positive (p) and the negative (q) normalised histogram. -/
def tail (p q : FVec Ideal SH .f32) : FVec Ideal S0 .f32 :=
  addf (constant (F := Ideal) S0 .f32 0x3F800000#32)
    (Host.divf
      (Host.reduceAdd
        (select (cmpf .ogt q (broadcastInDim SH ![] tail_bcast (constant (F := Ideal) S0 .f32 0x00000000#32)))
          (mulf q (subf (Host.log (select (cmpf .ogt q (broadcastInDim SH ![] tail_bcast (constant (F := Ideal) S0 .f32 0x00000000#32))) q
            (broadcastInDim SH ![] tail_bcast (constant (F := Ideal) S0 .f32 0x3F800000#32)))) p))
          (broadcastInDim SH ![] tail_bcast (constant (F := Ideal) S0 .f32 0x00000000#32)))
        (constant (F := Ideal) S0 .f32 0x00000000#32) tail_red tail_pos)
      (constant (F := Ideal) S0 .f32 0x42C80000#32))

end Cert.Hist

end
-- ==== Proof.LibTRefCast.lean ====
/-
  Typed references' transports. A host operation written over typed references moves a value to its buffer's type
  on the way in (`toBuf`) and back on the way out (`ofBuf`); both are casts along the reference's type equation, so
  there-and-back is the identity for ANY typed reference, and at a literal reference whose buffer type is the value's
  type each transport alone is the identity (`rfl`). Rewriting with these before comparing a run's composed term with
  a plain term keeps the comparison from unifying through the casts (on long host programs with inlined calls, at
  large extents, that unification does not finish).
-/
import Idealize.ShloMosaic.Lib.StableHlo

namespace Idealize.ShloMosaic.StableHlo.TRef

open Idealize.ShloMosaic

/-- A typed reference's transport of contents to its buffer's type and back is the identity. -/
theorem ofBuf_toBuf_id {sig : RefSig} {Val : EltTy → Type} {T : BufTy} (x : TRef sig T) (v : T.Contents Val) :
    x.ofBuf (x.toBuf v) = v := by
  unfold TRef.ofBuf TRef.toBuf
  simp only [cast_cast, cast_eq]

/-- And the other way round. -/
theorem toBuf_ofBuf_id {sig : RefSig} {Val : EltTy → Type} {T : BufTy} (x : TRef sig T) (v : x.ref.ty.Contents Val) :
    x.toBuf (x.ofBuf v) = v := by
  unfold TRef.ofBuf TRef.toBuf
  simp only [cast_cast, cast_eq]

end Idealize.ShloMosaic.StableHlo.TRef
-- ==== Proof.KTail.lean ====
/-
  The kernel program's host lines after its region, read back.  The region leaves four arrays: two
  [2, 128, 1] arrays of partial histograms (one per half of the pixels) and two [2, 1, 1] arrays of
  partial sizes.  The host lines add the two halves, keep the first 100 of the 128 rows, and divide
  by the total size: that is the normalised histogram.  The remaining lines are the loss as a function
  of the two normalised histograms.
-/
import proofs.«134737_j32444182954404_2_alg».proof.Proof.Gen.KernelIdeal.Frame
import proofs.«134737_j32444182954404_2_alg».proof.Proof.Spec
import proofs.«134737_j32444182954404_2_alg».proof.Proof.Tail
import proofs.«134737_j32444182954404_2_alg».proof.Proof.LibTRefCast
import Idealize.ShloMosaic.Lib.StableHlo.Run
import Idealize.ShloMosaic.Lib.Pipeline.Value
import Idealize.ShloMosaic.PureOps.Ideal.Laws
import Idealize.ShloMosaic.Lib.ValueIdx
import Idealize.ShloMosaic.Lib.ValueLayout

noncomputable section

open scoped BigOperators

namespace Cert.Hist.KT

open Idealize.ShloMosaic Idealize.ShloMosaic.TcCoe
open Idealize.SL.Sem
open Cert.KernelIdeal Cert.KernelIdeal.Gen

/-- The normalised histogram as the host lines compute it from the region's partial histograms A3
    (two halves of 128 rows) and partial sizes A5 (two halves): the halves added, the first 100 rows
    kept, each divided by the total size. -/
def norm (A3 : FVec Ideal S2x128x1 .f32) (A5 : FVec Ideal S2x1x1 .f32) : FVec Ideal S100 .f32 :=
  Host.divf
    (shapeCast S100
      (extractStridedSlice S100x1 ![0, 0]
        (Host.reduceAdd A3 (constant (F := Ideal) S_ .f32 0x00000000#32) reducesTo_S2x128x1_S128x1_d0 h_S_)
        slices_S128x1_S100x1_0_0)
      shapeCasts_S100x1_S100)
    (broadcastInDim S100 ![] bcast_S_S100
      (Host.reduceAdd A5 (constant (F := Ideal) S_ .f32 0x00000000#32) reducesTo_S2x1x1_S_d0_1_2 h_S_))

variable (m : (ℓ : Loc nD τ sig) → Buf (Elt Ideal) ℓ)

/-- The region's four output arrays, as the lines after it find them. -/
theorem arr3 (c : Dev nD) :
    Pipeline.withArrays (cfgs 0).spec c (V0 m c) (fun w => (dats m 0 c).arrAt w (cfgs 0).N) (Proc.devRef .tc main_v3_0)
      = (dats m 0 c).arrAt 3 cfg0.N :=
  Pipeline.withArrays_arr spec0 launch0.win.arr_inj c _ _ 3
theorem arr4 (c : Dev nD) :
    Pipeline.withArrays (cfgs 0).spec c (V0 m c) (fun w => (dats m 0 c).arrAt w (cfgs 0).N) (Proc.devRef .tc main_v3_1)
      = (dats m 0 c).arrAt 4 cfg0.N :=
  Pipeline.withArrays_arr spec0 launch0.win.arr_inj c _ _ 4
theorem arr5 (c : Dev nD) :
    Pipeline.withArrays (cfgs 0).spec c (V0 m c) (fun w => (dats m 0 c).arrAt w (cfgs 0).N) (Proc.devRef .tc main_v3_2)
      = (dats m 0 c).arrAt 5 cfg0.N :=
  Pipeline.withArrays_arr spec0 launch0.win.arr_inj c _ _ 5
theorem arr6 (c : Dev nD) :
    Pipeline.withArrays (cfgs 0).spec c (V0 m c) (fun w => (dats m 0 c).arrAt w (cfgs 0).N) (Proc.devRef .tc main_v3_3)
      = (dats m 0 c).arrAt 6 cfg0.N :=
  Pipeline.withArrays_arr spec0 launch0.win.arr_inj c _ _ 6

/-! The module-local function's operands are literal buffers whose type is the value's type, so moving
a value to the buffer's type, or back, changes nothing. -/
theorem toBuf_main_cst_5 (v : (⟨S_, .f32⟩ : BufTy).Contents (Elt Ideal)) :
    (StableHlo.TRef.of main_cst_5 : StableHlo.TRef sig ⟨S_, .f32⟩).toBuf v = v := rfl
theorem ofBuf_main_cst_5 (v : (⟨S_, .f32⟩ : BufTy).Contents (Elt Ideal)) :
    (StableHlo.TRef.of main_cst_5 : StableHlo.TRef sig ⟨S_, .f32⟩).ofBuf v = v := rfl
theorem toBuf_main_call0_v0 (v : (⟨S_, .f32⟩ : BufTy).Contents (Elt Ideal)) :
    (StableHlo.TRef.of main_call0_v0 : StableHlo.TRef sig ⟨S_, .f32⟩).toBuf v = v := rfl
theorem ofBuf_main_call0_v0 (v : (⟨S_, .f32⟩ : BufTy).Contents (Elt Ideal)) :
    (StableHlo.TRef.of main_call0_v0 : StableHlo.TRef sig ⟨S_, .f32⟩).ofBuf v = v := rfl
theorem toBuf_main_call0_v1 (v : (⟨S100, .f32⟩ : BufTy).Contents (Elt Ideal)) :
    (StableHlo.TRef.of main_call0_v1 : StableHlo.TRef sig ⟨S100, .f32⟩).toBuf v = v := rfl
theorem ofBuf_main_call0_v1 (v : (⟨S100, .f32⟩ : BufTy).Contents (Elt Ideal)) :
    (StableHlo.TRef.of main_call0_v1 : StableHlo.TRef sig ⟨S100, .f32⟩).ofBuf v = v := rfl
theorem toBuf_main_v19 (v : (⟨S100, .i1⟩ : BufTy).Contents (Elt Ideal)) :
    (StableHlo.TRef.of main_v19 : StableHlo.TRef sig ⟨S100, .i1⟩).toBuf v = v := rfl
theorem ofBuf_main_v19 (v : (⟨S100, .i1⟩ : BufTy).Contents (Elt Ideal)) :
    (StableHlo.TRef.of main_v19 : StableHlo.TRef sig ⟨S100, .i1⟩).ofBuf v = v := rfl
theorem toBuf_main_v15 (v : (⟨S100, .f32⟩ : BufTy).Contents (Elt Ideal)) :
    (StableHlo.TRef.of main_v15 : StableHlo.TRef sig ⟨S100, .f32⟩).toBuf v = v := rfl
theorem ofBuf_main_v15 (v : (⟨S100, .f32⟩ : BufTy).Contents (Elt Ideal)) :
    (StableHlo.TRef.of main_v15 : StableHlo.TRef sig ⟨S100, .f32⟩).ofBuf v = v := rfl
theorem toBuf_main_v20 (v : (⟨S100, .f32⟩ : BufTy).Contents (Elt Ideal)) :
    (StableHlo.TRef.of main_v20 : StableHlo.TRef sig ⟨S100, .f32⟩).toBuf v = v := rfl
theorem ofBuf_main_v20 (v : (⟨S100, .f32⟩ : BufTy).Contents (Elt Ideal)) :
    (StableHlo.TRef.of main_v20 : StableHlo.TRef sig ⟨S100, .f32⟩).ofBuf v = v := rfl
theorem toBuf_main_cst_6 (v : (⟨S_, .f32⟩ : BufTy).Contents (Elt Ideal)) :
    (StableHlo.TRef.of main_cst_6 : StableHlo.TRef sig ⟨S_, .f32⟩).toBuf v = v := rfl
theorem ofBuf_main_cst_6 (v : (⟨S_, .f32⟩ : BufTy).Contents (Elt Ideal)) :
    (StableHlo.TRef.of main_cst_6 : StableHlo.TRef sig ⟨S_, .f32⟩).ofBuf v = v := rfl
theorem toBuf_main_call1_v0 (v : (⟨S_, .f32⟩ : BufTy).Contents (Elt Ideal)) :
    (StableHlo.TRef.of main_call1_v0 : StableHlo.TRef sig ⟨S_, .f32⟩).toBuf v = v := rfl
theorem ofBuf_main_call1_v0 (v : (⟨S_, .f32⟩ : BufTy).Contents (Elt Ideal)) :
    (StableHlo.TRef.of main_call1_v0 : StableHlo.TRef sig ⟨S_, .f32⟩).ofBuf v = v := rfl
theorem toBuf_main_call1_v1 (v : (⟨S100, .f32⟩ : BufTy).Contents (Elt Ideal)) :
    (StableHlo.TRef.of main_call1_v1 : StableHlo.TRef sig ⟨S100, .f32⟩).toBuf v = v := rfl
theorem ofBuf_main_call1_v1 (v : (⟨S100, .f32⟩ : BufTy).Contents (Elt Ideal)) :
    (StableHlo.TRef.of main_call1_v1 : StableHlo.TRef sig ⟨S100, .f32⟩).ofBuf v = v := rfl
theorem toBuf_main_v17 (v : (⟨S100, .i1⟩ : BufTy).Contents (Elt Ideal)) :
    (StableHlo.TRef.of main_v17 : StableHlo.TRef sig ⟨S100, .i1⟩).toBuf v = v := rfl
theorem ofBuf_main_v17 (v : (⟨S100, .i1⟩ : BufTy).Contents (Elt Ideal)) :
    (StableHlo.TRef.of main_v17 : StableHlo.TRef sig ⟨S100, .i1⟩).ofBuf v = v := rfl
theorem toBuf_main_v23 (v : (⟨S100, .f32⟩ : BufTy).Contents (Elt Ideal)) :
    (StableHlo.TRef.of main_v23 : StableHlo.TRef sig ⟨S100, .f32⟩).toBuf v = v := rfl
theorem ofBuf_main_v23 (v : (⟨S100, .f32⟩ : BufTy).Contents (Elt Ideal)) :
    (StableHlo.TRef.of main_v23 : StableHlo.TRef sig ⟨S100, .f32⟩).ofBuf v = v := rfl
theorem toBuf_main_v24 (v : (⟨S100, .f32⟩ : BufTy).Contents (Elt Ideal)) :
    (StableHlo.TRef.of main_v24 : StableHlo.TRef sig ⟨S100, .f32⟩).toBuf v = v := rfl
theorem ofBuf_main_v24 (v : (⟨S100, .f32⟩ : BufTy).Contents (Elt Ideal)) :
    (StableHlo.TRef.of main_v24 : StableHlo.TRef sig ⟨S100, .f32⟩).ofBuf v = v := rfl

/-- THE TAIL READ BACK: what the host lines after the region leave in the result buffer is the loss
    of the two normalised histograms computed from the region's four output arrays. -/
theorem tail_read (c : Dev nD) :
    Pipeline.afterTail₀ cfgs (dats m) 0 (V0 m) [hostOps1, hostOps1_1, hostOps1_2, hostOps1_3, hostOps1_4] c main_v27
      = Cert.Hist.tail (norm ((dats m 0 c).arrAt 3 cfg0.N) ((dats m 0 c).arrAt 5 cfg0.N))
          (norm ((dats m 0 c).arrAt 4 cfg0.N) ((dats m 0 c).arrAt 6 cfg0.N)) := by
  unfold Pipeline.afterTail₀
  simp only [hostOps1, hostOps1_1, hostOps1_2, hostOps1_3, hostOps1_4, List.flatten_cons, List.flatten_nil,
    List.append_nil, List.cons_append, List.nil_append]
  open Idealize.ShloMosaic.StableHlo in after_results_simp
  rw [arr3, arr4, arr5, arr6]
  simp only [StableHlo.TRef.ofBuf_toBuf_id, StableHlo.TRef.toBuf_ofBuf_id, id]
  simp only [toBuf_main_cst_5, ofBuf_main_cst_5, toBuf_main_call0_v0, ofBuf_main_call0_v0, toBuf_main_call0_v1, ofBuf_main_call0_v1, toBuf_main_v19, ofBuf_main_v19, toBuf_main_v15, ofBuf_main_v15, toBuf_main_v20, ofBuf_main_v20, toBuf_main_cst_6, ofBuf_main_cst_6, toBuf_main_call1_v0, ofBuf_main_call1_v0, toBuf_main_call1_v1, ofBuf_main_call1_v1, toBuf_main_v17, ofBuf_main_v17, toBuf_main_v23, ofBuf_main_v23, toBuf_main_v24, ofBuf_main_v24]
  unfold Cert.Hist.tail norm
  rfl

end Cert.Hist.KT

end
-- ==== Proof.KPieces.lean ====
/-
  One grid step of the kernel, as four updates of four running values.

  A grid step reads a block of each feature array and a block of labels, and leaves in the four output buffers
  the positive histogram, the negative histogram, the positive count and the negative count, each updated from
  what the buffer held.  At a step whose second grid coordinate is zero the body first stores zeros, so the
  update starts from zero; at any other step it starts from what the step before left.  Each output buffer ends
  a step holding exactly one covering store's value: the update applied to the starting value.
-/
import proofs.«134737_j32444182954404_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Hist.KV

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- One grid step's four updates, as functions of the step's three input blocks and the running value. -/
def step3 (x0 : Vec F S32x16384 .f32) (x1 : Vec F S32x16384 .f32) (x2 : Vec F S1x16384 .i32) (acc : Vec F S1x128x1 .f32) : Vec F S1x128x1 .f32 :=
  k0_pay16 (k0_pay11 x0 x1) (k0_pay12 x0 x1 x2) (k0_pay13 x0 x1 x2) (Scalar.ofBits .f32 0x3F800000#32) acc
def step4 (x0 : Vec F S32x16384 .f32) (x1 : Vec F S32x16384 .f32) (x2 : Vec F S1x16384 .i32) (acc : Vec F S1x128x1 .f32) : Vec F S1x128x1 .f32 :=
  k0_pay17 (k0_pay11 x0 x1) (k0_pay12 x0 x1 x2) (k0_pay13 x0 x1 x2) (Scalar.ofBits .f32 0x3F800000#32) acc
def step5 (x2 : Vec F S1x16384 .i32) (acc : Vec F S1x1x1 .f32) : Vec F S1x1x1 .f32 :=
  k0_pay1 (k0_pay18 (k0_pay8 x2) acc)
def step6 (x2 : Vec F S1x16384 .i32) (acc : Vec F S1x1x1 .f32) : Vec F S1x1x1 .f32 :=
  k0_pay2 (k0_pay15 (k0_pay9 x2)) acc

theorem out_B_3 (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S32x16384 .f32) (x1 : Vec F S32x16384 .f32) (x2 : Vec F S1x16384 .i32) (xo3 : Vec F S1x128x1 .f32) (xo4 : Vec F S1x128x1 .f32) (xo5 : Vec F S1x1x1 .f32) (xo6 : Vec F S1x1x1 .f32) :
    out0_B_3 c i a2 h2 a3 h3 a4 h4 a5 h5 a6 h6 a7 h7 a8 h8 hc x0 x1 x2 xo3 xo4 xo5 xo6 = step3 x0 x1 x2 xo3 := by
  unfold out0_B_3
  rw [View.read_writes_eq_canon _ _ _ (cover0_B_3 c i a2 h2 a3 h3 a4 h4 a5 h5 a6 h6 a7 h7 a8 h8 hc x0 x1 x2 xo3 xo4 xo5 xo6)]
  unfold kernelRun0_B
  dsimp only
  sl_unfold_words
  rw [View.canon_unit_zero hz3]
  unfold step3
  simp only [View.readAt_eq_ld, h2.read_unread, h3.read_unread, h4.read_unread, h5.read_unread, h6.read_unread, h7.read_unread, h8.read_unread, View.ld_unit_zero (S := S1x128x1) hz3, View.ld_unit_zero (S := S1x1x1) hz3, View.ld_unit_zero (S := S32x16384) hz2, View.ld_unit_zero (S := S1x16384) hz2]

theorem out_B_4 (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S32x16384 .f32) (x1 : Vec F S32x16384 .f32) (x2 : Vec F S1x16384 .i32) (xo3 : Vec F S1x128x1 .f32) (xo4 : Vec F S1x128x1 .f32) (xo5 : Vec F S1x1x1 .f32) (xo6 : Vec F S1x1x1 .f32) :
    out0_B_4 c i a2 h2 a3 h3 a4 h4 a5 h5 a6 h6 a7 h7 a8 h8 hc x0 x1 x2 xo3 xo4 xo5 xo6 = step4 x0 x1 x2 xo4 := by
  unfold out0_B_4
  rw [View.read_writes_eq_canon _ _ _ (cover0_B_4 c i a2 h2 a3 h3 a4 h4 a5 h5 a6 h6 a7 h7 a8 h8 hc x0 x1 x2 xo3 xo4 xo5 xo6)]
  unfold kernelRun0_B
  dsimp only
  sl_unfold_words
  rw [View.canon_unit_zero hz3]
  unfold step4
  simp only [View.readAt_eq_ld, h2.read_unread, h3.read_unread, h4.read_unread, h5.read_unread, h6.read_unread, h7.read_unread, h8.read_unread, View.ld_unit_zero (S := S1x128x1) hz3, View.ld_unit_zero (S := S1x1x1) hz3, View.ld_unit_zero (S := S32x16384) hz2, View.ld_unit_zero (S := S1x16384) hz2]

theorem out_B_5 (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S32x16384 .f32) (x1 : Vec F S32x16384 .f32) (x2 : Vec F S1x16384 .i32) (xo3 : Vec F S1x128x1 .f32) (xo4 : Vec F S1x128x1 .f32) (xo5 : Vec F S1x1x1 .f32) (xo6 : Vec F S1x1x1 .f32) :
    out0_B_5 c i a2 h2 a3 h3 a4 h4 a5 h5 a6 h6 a7 h7 a8 h8 hc x0 x1 x2 xo3 xo4 xo5 xo6 = step5 x2 xo5 := by
  unfold out0_B_5
  rw [View.read_writes_eq_canon _ _ _ (cover0_B_5 c i a2 h2 a3 h3 a4 h4 a5 h5 a6 h6 a7 h7 a8 h8 hc x0 x1 x2 xo3 xo4 xo5 xo6)]
  unfold kernelRun0_B
  dsimp only
  sl_unfold_words
  rw [View.canon_unit_zero hz3]
  unfold step5
  simp only [View.readAt_eq_ld, h2.read_unread, h3.read_unread, h4.read_unread, h5.read_unread, h6.read_unread, h7.read_unread, h8.read_unread, View.ld_unit_zero (S := S1x128x1) hz3, View.ld_unit_zero (S := S1x1x1) hz3, View.ld_unit_zero (S := S32x16384) hz2, View.ld_unit_zero (S := S1x16384) hz2]

theorem out_B_6 (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S32x16384 .f32) (x1 : Vec F S32x16384 .f32) (x2 : Vec F S1x16384 .i32) (xo3 : Vec F S1x128x1 .f32) (xo4 : Vec F S1x128x1 .f32) (xo5 : Vec F S1x1x1 .f32) (xo6 : Vec F S1x1x1 .f32) :
    out0_B_6 c i a2 h2 a3 h3 a4 h4 a5 h5 a6 h6 a7 h7 a8 h8 hc x0 x1 x2 xo3 xo4 xo5 xo6 = step6 x2 xo6 := by
  unfold out0_B_6
  rw [View.read_writes_eq_canon _ _ _ (cover0_B_6 c i a2 h2 a3 h3 a4 h4 a5 h5 a6 h6 a7 h7 a8 h8 hc x0 x1 x2 xo3 xo4 xo5 xo6)]
  unfold kernelRun0_B
  dsimp only
  sl_unfold_words
  rw [View.canon_unit_zero hz3]
  unfold step6
  simp only [View.readAt_eq_ld, h2.read_unread, h3.read_unread, h4.read_unread, h5.read_unread, h6.read_unread, h7.read_unread, h8.read_unread, View.ld_unit_zero (S := S1x128x1) hz3, View.ld_unit_zero (S := S1x1x1) hz3, View.ld_unit_zero (S := S32x16384) hz2, View.ld_unit_zero (S := S1x16384) hz2]

theorem out_A_3 (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S32x16384 .f32) (x1 : Vec F S32x16384 .f32) (x2 : Vec F S1x16384 .i32) :
    out0_A_3 c i a2 h2 a3 h3 a4 h4 a5 h5 a6 h6 a7 h7 a8 h8 hc x0 x1 x2 = step3 x0 x1 x2 k0_pay3 := by
  unfold out0_A_3
  rw [View.read_writes_eq_canon _ _ _ (cover0_A_3 c i a2 h2 a3 h3 a4 h4 a5 h5 a6 h6 a7 h7 a8 h8 hc x0 x1 x2)]
  unfold kernelRun0_A
  dsimp only
  sl_unfold_words
  rw [View.canon_cons_unit_zero (S := S1x128x1) hz3, View.readCov_unit_zero (S := S1x128x1) _ hz3]
  unfold step3
  simp only [View.readAt_eq_ld, h2.read_unread, h3.read_unread, h4.read_unread, h5.read_unread, h6.read_unread, h7.read_unread, h8.read_unread, View.ld_unit_zero (S := S1x128x1) hz3, View.ld_unit_zero (S := S1x1x1) hz3, View.ld_unit_zero (S := S32x16384) hz2, View.ld_unit_zero (S := S1x16384) hz2]

theorem out_A_4 (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S32x16384 .f32) (x1 : Vec F S32x16384 .f32) (x2 : Vec F S1x16384 .i32) :
    out0_A_4 c i a2 h2 a3 h3 a4 h4 a5 h5 a6 h6 a7 h7 a8 h8 hc x0 x1 x2 = step4 x0 x1 x2 k0_pay4 := by
  unfold out0_A_4
  rw [View.read_writes_eq_canon _ _ _ (cover0_A_4 c i a2 h2 a3 h3 a4 h4 a5 h5 a6 h6 a7 h7 a8 h8 hc x0 x1 x2)]
  unfold kernelRun0_A
  dsimp only
  sl_unfold_words
  rw [View.canon_cons_unit_zero (S := S1x128x1) hz3, View.readCov_unit_zero (S := S1x128x1) _ hz3]
  unfold step4
  simp only [View.readAt_eq_ld, h2.read_unread, h3.read_unread, h4.read_unread, h5.read_unread, h6.read_unread, h7.read_unread, h8.read_unread, View.ld_unit_zero (S := S1x128x1) hz3, View.ld_unit_zero (S := S1x1x1) hz3, View.ld_unit_zero (S := S32x16384) hz2, View.ld_unit_zero (S := S1x16384) hz2]

theorem out_A_5 (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S32x16384 .f32) (x1 : Vec F S32x16384 .f32) (x2 : Vec F S1x16384 .i32) :
    out0_A_5 c i a2 h2 a3 h3 a4 h4 a5 h5 a6 h6 a7 h7 a8 h8 hc x0 x1 x2 = step5 x2 k0_pay5 := by
  unfold out0_A_5
  rw [View.read_writes_eq_canon _ _ _ (cover0_A_5 c i a2 h2 a3 h3 a4 h4 a5 h5 a6 h6 a7 h7 a8 h8 hc x0 x1 x2)]
  unfold kernelRun0_A
  dsimp only
  sl_unfold_words
  rw [View.canon_cons_unit_zero (S := S1x1x1) hz3, View.readCov_unit_zero (S := S1x1x1) _ hz3]
  unfold step5
  simp only [View.readAt_eq_ld, h2.read_unread, h3.read_unread, h4.read_unread, h5.read_unread, h6.read_unread, h7.read_unread, h8.read_unread, View.ld_unit_zero (S := S1x128x1) hz3, View.ld_unit_zero (S := S1x1x1) hz3, View.ld_unit_zero (S := S32x16384) hz2, View.ld_unit_zero (S := S1x16384) hz2]

theorem out_A_6 (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S32x16384 .f32) (x1 : Vec F S32x16384 .f32) (x2 : Vec F S1x16384 .i32) :
    out0_A_6 c i a2 h2 a3 h3 a4 h4 a5 h5 a6 h6 a7 h7 a8 h8 hc x0 x1 x2 = step6 x2 k0_pay6 := by
  unfold out0_A_6
  rw [View.read_writes_eq_canon _ _ _ (cover0_A_6 c i a2 h2 a3 h3 a4 h4 a5 h5 a6 h6 a7 h7 a8 h8 hc x0 x1 x2)]
  unfold kernelRun0_A
  dsimp only
  sl_unfold_words
  rw [View.canon_cons_unit_zero (S := S1x1x1) hz3, View.readCov_unit_zero (S := S1x1x1) _ hz3]
  unfold step6
  simp only [View.readAt_eq_ld, h2.read_unread, h3.read_unread, h4.read_unread, h5.read_unread, h6.read_unread, h7.read_unread, h8.read_unread, View.ld_unit_zero (S := S1x128x1) hz3, View.ld_unit_zero (S := S1x1x1) hz3, View.ld_unit_zero (S := S32x16384) hz2, View.ld_unit_zero (S := S1x16384) hz2]

end Cert.Hist.KV
end
-- ==== Proof.KChain.lean ====
/-
  The four output buffers after each grid position.

  The grid has 64 positions, walked in order; position n belongs to run n / 32 and is step n % 32 of it.
  The four running values restart from zero at the first step of a run and are updated from the position
  before at every other step, so after position n they are the fold of the step over the blocks of positions
  n − n % 32, …, n.  What the frame run records for the four output buffers after position n is this fold
  (by induction on the position: each case of the body leaves the step applied to its starting value).
-/
import proofs.«134737_j32444182954404_2_alg».proof.Proof.KPieces

noncomputable section

open Idealize.ShloMosaic Idealize.ShloMosaic.TcCoe Idealize.SL.Sem
open Idealize.ShloMosaic.Pipeline (Dat)

namespace Cert.Hist.KV

open Cert.KernelIdeal Cert.KernelIdeal.Gen

variable {F : FTy → Type} [FloatOps F]

/-- The four running values together; all four start from zero. -/
abbrev Acc (F : FTy → Type) [FloatOps F] : Type := Vec F S1x128x1 .f32 × Vec F S1x128x1 .f32 × Vec F S1x1x1 .f32 × Vec F S1x1x1 .f32
def zeros : Acc F := (k0_pay3, k0_pay4, k0_pay5, k0_pay6)
/-- One grid step on the four running values. -/
def stepAll (x0 : Vec F S32x16384 .f32) (x1 : Vec F S32x16384 .f32) (x2 : Vec F S1x16384 .i32) (a : Acc F) : Acc F :=
  (step3 x0 x1 x2 a.1, step4 x0 x1 x2 a.2.1, step5 x2 a.2.2.1, step6 x2 a.2.2.2)

theorem outA_all (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S32x16384 .f32) (x1 : Vec F S32x16384 .f32) (x2 : Vec F S1x16384 .i32) :
    ((out0_A_3 c i a2 h2 a3 h3 a4 h4 a5 h5 a6 h6 a7 h7 a8 h8 hc x0 x1 x2, out0_A_4 c i a2 h2 a3 h3 a4 h4 a5 h5 a6 h6 a7 h7 a8 h8 hc x0 x1 x2, out0_A_5 c i a2 h2 a3 h3 a4 h4 a5 h5 a6 h6 a7 h7 a8 h8 hc x0 x1 x2, out0_A_6 c i a2 h2 a3 h3 a4 h4 a5 h5 a6 h6 a7 h7 a8 h8 hc x0 x1 x2) : Acc F)
      = stepAll x0 x1 x2 zeros :=
  Prod.ext (out_A_3 c i a2 h2 a3 h3 a4 h4 a5 h5 a6 h6 a7 h7 a8 h8 hc x0 x1 x2) (Prod.ext (out_A_4 c i a2 h2 a3 h3 a4 h4 a5 h5 a6 h6 a7 h7 a8 h8 hc x0 x1 x2) (Prod.ext (out_A_5 c i a2 h2 a3 h3 a4 h4 a5 h5 a6 h6 a7 h7 a8 h8 hc x0 x1 x2) (out_A_6 c i a2 h2 a3 h3 a4 h4 a5 h5 a6 h6 a7 h7 a8 h8 hc x0 x1 x2)))

theorem outB_all (c : Dev nD) (i : grid0.Coords) (a2 : Memref sig .tc .vmem S32x16384 .f32) (h2 : a2.IsWhole) (a3 : Memref sig .tc .vmem S32x16384 .f32) (h3 : a3.IsWhole) (a4 : Memref sig .tc .vmem S1x16384 .i32) (h4 : a4.IsWhole) (a5 : Memref sig .tc .vmem S1x128x1 .f32) (h5 : a5.IsWhole) (a6 : Memref sig .tc .vmem S1x128x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S32x16384 .f32) (x1 : Vec F S32x16384 .f32) (x2 : Vec F S1x16384 .i32) (a : Acc F) :
    ((out0_B_3 c i a2 h2 a3 h3 a4 h4 a5 h5 a6 h6 a7 h7 a8 h8 hc x0 x1 x2 a.1 a.2.1 a.2.2.1 a.2.2.2, out0_B_4 c i a2 h2 a3 h3 a4 h4 a5 h5 a6 h6 a7 h7 a8 h8 hc x0 x1 x2 a.1 a.2.1 a.2.2.1 a.2.2.2, out0_B_5 c i a2 h2 a3 h3 a4 h4 a5 h5 a6 h6 a7 h7 a8 h8 hc x0 x1 x2 a.1 a.2.1 a.2.2.1 a.2.2.2, out0_B_6 c i a2 h2 a3 h3 a4 h4 a5 h5 a6 h6 a7 h7 a8 h8 hc x0 x1 x2 a.1 a.2.1 a.2.2.1 a.2.2.2) : Acc F)
      = stepAll x0 x1 x2 a :=
  Prod.ext (out_B_3 c i a2 h2 a3 h3 a4 h4 a5 h5 a6 h6 a7 h7 a8 h8 hc x0 x1 x2 a.1 a.2.1 a.2.2.1 a.2.2.2) (Prod.ext (out_B_4 c i a2 h2 a3 h3 a4 h4 a5 h5 a6 h6 a7 h7 a8 h8 hc x0 x1 x2 a.1 a.2.1 a.2.2.1 a.2.2.2) (Prod.ext (out_B_5 c i a2 h2 a3 h3 a4 h4 a5 h5 a6 h6 a7 h7 a8 h8 hc x0 x1 x2 a.1 a.2.1 a.2.2.1 a.2.2.2) (out_B_6 c i a2 h2 a3 h3 a4 h4 a5 h5 a6 h6 a7 h7 a8 h8 hc x0 x1 x2 a.1 a.2.1 a.2.2.1 a.2.2.2)))

variable (m : (ℓ : Loc nD τ sig) → Buf (Elt F) ℓ)

/-- The three input blocks of grid position t, as the region finds the arrays. -/
abbrev blk0 (c : Dev nD) (t : Fin cfg0.N) : Vec F S32x16384 .f32 := iblk m c 0 t
abbrev blk1 (c : Dev nD) (t : Fin cfg0.N) : Vec F S32x16384 .f32 := iblk m c 1 t
abbrev blk2 (c : Dev nD) (t : Fin cfg0.N) : Vec F S1x16384 .i32 := iblk m c 2 t

/-- The four running values after position n of the grid: restarted from zero at the positions divisible by 32,
    updated from the position before otherwise. -/
def acc (c : Dev nD) : (n : ℕ) → n < cfg0.N → Acc F
  | 0, h => stepAll (blk0 m c ⟨0, h⟩) (blk1 m c ⟨0, h⟩) (blk2 m c ⟨0, h⟩) zeros
  | n + 1, h => stepAll (blk0 m c ⟨n + 1, h⟩) (blk1 m c ⟨n + 1, h⟩) (blk2 m c ⟨n + 1, h⟩)
      (if (n + 1) % 32 = 0 then zeros else acc c n (Nat.lt_of_succ_lt h))

theorem acc_zero (c : Dev nD) (h : 0 < cfg0.N) :
    acc m c 0 h = stepAll (blk0 m c ⟨0, h⟩) (blk1 m c ⟨0, h⟩) (blk2 m c ⟨0, h⟩) zeros := rfl
theorem acc_succ (c : Dev nD) (n : ℕ) (h : n + 1 < cfg0.N) :
    acc m c (n + 1) h = stepAll (blk0 m c ⟨n + 1, h⟩) (blk1 m c ⟨n + 1, h⟩) (blk2 m c ⟨n + 1, h⟩)
      (if (n + 1) % 32 = 0 then zeros else acc m c n (Nat.lt_of_succ_lt h)) := rfl

/-- What the four output buffers hold after position n is the running values. -/
theorem outsAt_eq (c : Dev nD) (n : ℕ) : ∀ h : n < cfg0.N, outsAt0 m c n h = acc m c n h := by
  induction n with
  | zero =>
    intro h
    refine (outsAt0_A m c ⟨0, h⟩ rfl).trans ?_
    rw [acc_zero]
    exact outA_all c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk m c 0 ⟨0, h⟩) (iblk m c 1 ⟨0, h⟩) (iblk m c 2 ⟨0, h⟩)
  | succ n ih =>
    intro h
    rw [acc_succ]
    by_cases h0 : (n + 1) % 32 = 0
    · refine (outsAt0_A m c ⟨n + 1, h⟩ h0).trans ?_
      rw [if_pos h0]
      exact outA_all c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) ((hcond0_0 ⟨n + 1, h⟩).mpr h0) (iblk m c 0 ⟨n + 1, h⟩) (iblk m c 1 ⟨n + 1, h⟩) (iblk m c 2 ⟨n + 1, h⟩)
    · refine (outsAt0_B m c ⟨n + 1, h⟩ h0).trans ?_
      rw [if_neg h0, ← ih (Nat.lt_of_succ_lt h)]
      exact outB_all c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h))

end Cert.Hist.KV
end
-- ==== Proof.KFinal.lean ====
/-
  The four output arrays after the whole grid.

  Output array w has one block per run (block index n / 32 at position n), written back after the last step of
  the run (positions 31 and 63).  So row c of each output array ends holding the running value after position
  32 c + 31, and the two written-back blocks cover the array.
-/
import proofs.«134737_j32444182954404_2_alg».proof.Proof.KChain
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Hist.KV

open Cert.KernelIdeal Cert.KernelIdeal.Gen

variable {F : FTy → Type} [FloatOps F]
variable (m : (ℓ : Loc nD τ sig) → Buf (Elt F) ℓ)

/-- The running values after position n, for every natural number n (zero past the grid). -/
def accT (c : Dev nD) (n : ℕ) : Acc F := if h : n < cfg0.N then acc m c n h else zeros
theorem accT_eq (c : Dev nD) (n : ℕ) (h : n < cfg0.N) : accT m c n = acc m c n h := dif_pos h

/-- Each output window's block index at position t is (t / 32, 0, 0). -/
theorem idx_facts : ∀ t : Fin cfg0.N,
    win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = 0 ∧ win0_5.index t (2 : Fin 3) = 0
    ∧ win0_6.index t (0 : Fin 3) = t.val / 32 ∧ win0_6.index t (1 : Fin 3) = 0 ∧ win0_6.index t (2 : Fin 3) = 0 :=
  (by decide +kernel : ∀ t : Fin grid0.N, _)

/-- Output array 3 after the run: row c is the running value after the last step of run c. -/
def G3 (c : Dev nD) : S2x128x1.Idx → Elt F .f32 := fun i => (accT m c ((i 0).val * 32 + 31)).1 (ix3 0 (i 1) (i 2))

theorem flushed3_eq (c : Dev nD) (t : Fin cfg0.N) (hf : (cfg0.win 3).flush t = true) :
    (dats m 0 c).flushed 3 t = ((cfg0.win 3).blk t).view.read (Elt F) (G3 m c) := by
  have h31 : t.val % 32 = 31 := (flush0_3 t).mp hf
  show (cfg0.win 3).cut (grid0.coords t) ((dats m 0 c).after 3 t) = _
  rw [after0_3, outsAt_eq]
  obtain ⟨e0, e1, e2, -⟩ := idx_facts t
  funext j
  rw [View.read_apply]
  show (acc m c t.val t.isLt).1 j = G3 m c (((cfg0.win 3).blk t).view.emb j)
  unfold G3
  have hj0 : (j 0).val < 1 := (j 0).isLt
  have hj1 : (j 1).val < 128 := (j 1).isLt
  have hj2 : (j 2).val < 1 := (j 2).isLt
  have hn : ((((cfg0.win 3).blk t).view.emb j) 0).val * 32 + 31 = t.val := by
    show (win0_3.index t (0 : Fin 3) * 1 + 1 * (j 0).val) * 32 + 31 = t.val
    omega
  rw [hn, accT_eq m c t.val t.isLt]
  refine congrArg (acc m c t.val t.isLt).1 ?_
  funext a
  apply Fin.ext
  match a with
  | ⟨0, _⟩ => show (j 0).val = 0; omega
  | ⟨1, _⟩ => show (j 1).val = win0_3.index t (1 : Fin 3) * 128 + 1 * (j 1).val; omega
  | ⟨2, _⟩ => show (j 2).val = win0_3.index t (2 : Fin 3) * 1 + 1 * (j 2).val; omega

theorem mem_blk3 (t : Fin cfg0.N) (i : S2x128x1.Idx) :
    i ∈ ((cfg0.win 3).blk t).view.set ↔ ∀ a : Fin 3, win0_3.index t a * S1x128x1.size a ≤ (i a).val ∧ (i a).val < win0_3.index t a * S1x128x1.size a + S1x128x1.size a := by
  show i ∈ ((View.whole main_v3_0).slice (win0_3.rect t)).set ↔ _
  rw [View.set_slice_whole, Rect.mem_set_unit]
  exact Iff.rfl

theorem final3 (c : Dev nD) : (dats m 0 c).arrAt 3 cfg0.N = G3 m c :=
  (dats m 0 c).arrAt_eq_of_cover 3 (G3 m c) (flushed3_eq m c) fun i => by
    have hi0 : (i 0).val < 2 := (i 0).isLt
    have hi1 : (i 1).val < 128 := (i 1).isLt
    have hi2 : (i 2).val < 1 := (i 2).isLt
    have hN : cfg0.N = 64 := N_0
    refine ⟨⟨(i 0).val * 32 + 31, by omega⟩, (flush0_3 _).mpr (by show ((i 0).val * 32 + 31) % 32 = 31; omega), ?_⟩
    rw [mem_blk3]
    obtain ⟨e0, e1, e2, -⟩ := idx_facts ⟨(i 0).val * 32 + 31, by omega⟩
    intro a
    match a with
    | ⟨0, _⟩ => show win0_3.index _ (0 : Fin 3) * 1 ≤ (i 0).val ∧ (i 0).val < win0_3.index _ (0 : Fin 3) * 1 + 1; rw [e0]; show ((i 0).val * 32 + 31) / 32 * 1 ≤ _ ∧ _ < ((i 0).val * 32 + 31) / 32 * 1 + 1; omega
    | ⟨1, _⟩ => show win0_3.index _ (1 : Fin 3) * 128 ≤ (i 1).val ∧ (i 1).val < win0_3.index _ (1 : Fin 3) * 128 + 128; rw [e1]; omega
    | ⟨2, _⟩ => show win0_3.index _ (2 : Fin 3) * 1 ≤ (i 2).val ∧ (i 2).val < win0_3.index _ (2 : Fin 3) * 1 + 1; rw [e2]; omega

/-- Output array 4 after the run: row c is the running value after the last step of run c. -/
def G4 (c : Dev nD) : S2x128x1.Idx → Elt F .f32 := fun i => (accT m c ((i 0).val * 32 + 31)).2.1 (ix3 0 (i 1) (i 2))

theorem flushed4_eq (c : Dev nD) (t : Fin cfg0.N) (hf : (cfg0.win 4).flush t = true) :
    (dats m 0 c).flushed 4 t = ((cfg0.win 4).blk t).view.read (Elt F) (G4 m c) := by
  have h31 : t.val % 32 = 31 := (flush0_4 t).mp hf
  show (cfg0.win 4).cut (grid0.coords t) ((dats m 0 c).after 4 t) = _
  rw [after0_4, outsAt_eq]
  obtain ⟨-, -, -, e0, e1, e2, -⟩ := idx_facts t
  funext j
  rw [View.read_apply]
  show (acc m c t.val t.isLt).2.1 j = G4 m c (((cfg0.win 4).blk t).view.emb j)
  unfold G4
  have hj0 : (j 0).val < 1 := (j 0).isLt
  have hj1 : (j 1).val < 128 := (j 1).isLt
  have hj2 : (j 2).val < 1 := (j 2).isLt
  have hn : ((((cfg0.win 4).blk t).view.emb j) 0).val * 32 + 31 = t.val := by
    show (win0_4.index t (0 : Fin 3) * 1 + 1 * (j 0).val) * 32 + 31 = t.val
    omega
  rw [hn, accT_eq m c t.val t.isLt]
  refine congrArg (acc m c t.val t.isLt).2.1 ?_
  funext a
  apply Fin.ext
  match a with
  | ⟨0, _⟩ => show (j 0).val = 0; omega
  | ⟨1, _⟩ => show (j 1).val = win0_4.index t (1 : Fin 3) * 128 + 1 * (j 1).val; omega
  | ⟨2, _⟩ => show (j 2).val = win0_4.index t (2 : Fin 3) * 1 + 1 * (j 2).val; omega

theorem mem_blk4 (t : Fin cfg0.N) (i : S2x128x1.Idx) :
    i ∈ ((cfg0.win 4).blk t).view.set ↔ ∀ a : Fin 3, win0_4.index t a * S1x128x1.size a ≤ (i a).val ∧ (i a).val < win0_4.index t a * S1x128x1.size a + S1x128x1.size a := by
  show i ∈ ((View.whole main_v3_1).slice (win0_4.rect t)).set ↔ _
  rw [View.set_slice_whole, Rect.mem_set_unit]
  exact Iff.rfl

theorem final4 (c : Dev nD) : (dats m 0 c).arrAt 4 cfg0.N = G4 m c :=
  (dats m 0 c).arrAt_eq_of_cover 4 (G4 m c) (flushed4_eq m c) fun i => by
    have hi0 : (i 0).val < 2 := (i 0).isLt
    have hi1 : (i 1).val < 128 := (i 1).isLt
    have hi2 : (i 2).val < 1 := (i 2).isLt
    have hN : cfg0.N = 64 := N_0
    refine ⟨⟨(i 0).val * 32 + 31, by omega⟩, (flush0_4 _).mpr (by show ((i 0).val * 32 + 31) % 32 = 31; omega), ?_⟩
    rw [mem_blk4]
    obtain ⟨-, -, -, e0, e1, e2, -⟩ := idx_facts ⟨(i 0).val * 32 + 31, by omega⟩
    intro a
    match a with
    | ⟨0, _⟩ => show win0_4.index _ (0 : Fin 3) * 1 ≤ (i 0).val ∧ (i 0).val < win0_4.index _ (0 : Fin 3) * 1 + 1; rw [e0]; show ((i 0).val * 32 + 31) / 32 * 1 ≤ _ ∧ _ < ((i 0).val * 32 + 31) / 32 * 1 + 1; omega
    | ⟨1, _⟩ => show win0_4.index _ (1 : Fin 3) * 128 ≤ (i 1).val ∧ (i 1).val < win0_4.index _ (1 : Fin 3) * 128 + 128; rw [e1]; omega
    | ⟨2, _⟩ => show win0_4.index _ (2 : Fin 3) * 1 ≤ (i 2).val ∧ (i 2).val < win0_4.index _ (2 : Fin 3) * 1 + 1; rw [e2]; omega

/-- Output array 5 after the run: row c is the running value after the last step of run c. -/
def G5 (c : Dev nD) : S2x1x1.Idx → Elt F .f32 := fun i => (accT m c ((i 0).val * 32 + 31)).2.2.1 (ix3 0 (i 1) (i 2))

theorem flushed5_eq (c : Dev nD) (t : Fin cfg0.N) (hf : (cfg0.win 5).flush t = true) :
    (dats m 0 c).flushed 5 t = ((cfg0.win 5).blk t).view.read (Elt F) (G5 m c) := by
  have h31 : t.val % 32 = 31 := (flush0_5 t).mp hf
  show (cfg0.win 5).cut (grid0.coords t) ((dats m 0 c).after 5 t) = _
  rw [after0_5, outsAt_eq]
  obtain ⟨-, -, -, -, -, -, e0, e1, e2, -⟩ := idx_facts t
  funext j
  rw [View.read_apply]
  show (acc m c t.val t.isLt).2.2.1 j = G5 m c (((cfg0.win 5).blk t).view.emb j)
  unfold G5
  have hj0 : (j 0).val < 1 := (j 0).isLt
  have hj1 : (j 1).val < 1 := (j 1).isLt
  have hj2 : (j 2).val < 1 := (j 2).isLt
  have hn : ((((cfg0.win 5).blk t).view.emb j) 0).val * 32 + 31 = t.val := by
    show (win0_5.index t (0 : Fin 3) * 1 + 1 * (j 0).val) * 32 + 31 = t.val
    omega
  rw [hn, accT_eq m c t.val t.isLt]
  refine congrArg (acc m c t.val t.isLt).2.2.1 ?_
  funext a
  apply Fin.ext
  match a with
  | ⟨0, _⟩ => show (j 0).val = 0; omega
  | ⟨1, _⟩ => show (j 1).val = win0_5.index t (1 : Fin 3) * 1 + 1 * (j 1).val; omega
  | ⟨2, _⟩ => show (j 2).val = win0_5.index t (2 : Fin 3) * 1 + 1 * (j 2).val; omega

theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v3_2).slice (win0_5.rect t)).set ↔ _
  rw [View.set_slice_whole, Rect.mem_set_unit]
  exact Iff.rfl

theorem final5 (c : Dev nD) : (dats m 0 c).arrAt 5 cfg0.N = G5 m c :=
  (dats m 0 c).arrAt_eq_of_cover 5 (G5 m c) (flushed5_eq m c) fun i => by
    have hi0 : (i 0).val < 2 := (i 0).isLt
    have hi1 : (i 1).val < 1 := (i 1).isLt
    have hi2 : (i 2).val < 1 := (i 2).isLt
    have hN : cfg0.N = 64 := N_0
    refine ⟨⟨(i 0).val * 32 + 31, by omega⟩, (flush0_5 _).mpr (by show ((i 0).val * 32 + 31) % 32 = 31; omega), ?_⟩
    rw [mem_blk5]
    obtain ⟨-, -, -, -, -, -, e0, e1, e2, -⟩ := idx_facts ⟨(i 0).val * 32 + 31, by omega⟩
    intro a
    match a with
    | ⟨0, _⟩ => show win0_5.index _ (0 : Fin 3) * 1 ≤ (i 0).val ∧ (i 0).val < win0_5.index _ (0 : Fin 3) * 1 + 1; rw [e0]; show ((i 0).val * 32 + 31) / 32 * 1 ≤ _ ∧ _ < ((i 0).val * 32 + 31) / 32 * 1 + 1; omega
    | ⟨1, _⟩ => show win0_5.index _ (1 : Fin 3) * 1 ≤ (i 1).val ∧ (i 1).val < win0_5.index _ (1 : Fin 3) * 1 + 1; rw [e1]; omega
    | ⟨2, _⟩ => show win0_5.index _ (2 : Fin 3) * 1 ≤ (i 2).val ∧ (i 2).val < win0_5.index _ (2 : Fin 3) * 1 + 1; rw [e2]; omega

/-- Output array 6 after the run: row c is the running value after the last step of run c. -/
def G6 (c : Dev nD) : S2x1x1.Idx → Elt F .f32 := fun i => (accT m c ((i 0).val * 32 + 31)).2.2.2 (ix3 0 (i 1) (i 2))

theorem flushed6_eq (c : Dev nD) (t : Fin cfg0.N) (hf : (cfg0.win 6).flush t = true) :
    (dats m 0 c).flushed 6 t = ((cfg0.win 6).blk t).view.read (Elt F) (G6 m c) := by
  have h31 : t.val % 32 = 31 := (flush0_6 t).mp hf
  show (cfg0.win 6).cut (grid0.coords t) ((dats m 0 c).after 6 t) = _
  rw [after0_6, outsAt_eq]
  obtain ⟨-, -, -, -, -, -, -, -, -, e0, e1, e2⟩ := idx_facts t
  funext j
  rw [View.read_apply]
  show (acc m c t.val t.isLt).2.2.2 j = G6 m c (((cfg0.win 6).blk t).view.emb j)
  unfold G6
  have hj0 : (j 0).val < 1 := (j 0).isLt
  have hj1 : (j 1).val < 1 := (j 1).isLt
  have hj2 : (j 2).val < 1 := (j 2).isLt
  have hn : ((((cfg0.win 6).blk t).view.emb j) 0).val * 32 + 31 = t.val := by
    show (win0_6.index t (0 : Fin 3) * 1 + 1 * (j 0).val) * 32 + 31 = t.val
    omega
  rw [hn, accT_eq m c t.val t.isLt]
  refine congrArg (acc m c t.val t.isLt).2.2.2 ?_
  funext a
  apply Fin.ext
  match a with
  | ⟨0, _⟩ => show (j 0).val = 0; omega
  | ⟨1, _⟩ => show (j 1).val = win0_6.index t (1 : Fin 3) * 1 + 1 * (j 1).val; omega
  | ⟨2, _⟩ => show (j 2).val = win0_6.index t (2 : Fin 3) * 1 + 1 * (j 2).val; omega

theorem mem_blk6 (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v3_3).slice (win0_6.rect t)).set ↔ _
  rw [View.set_slice_whole, Rect.mem_set_unit]
  exact Iff.rfl

theorem final6 (c : Dev nD) : (dats m 0 c).arrAt 6 cfg0.N = G6 m c :=
  (dats m 0 c).arrAt_eq_of_cover 6 (G6 m c) (flushed6_eq m c) fun i => by
    have hi0 : (i 0).val < 2 := (i 0).isLt
    have hi1 : (i 1).val < 1 := (i 1).isLt
    have hi2 : (i 2).val < 1 := (i 2).isLt
    have hN : cfg0.N = 64 := N_0
    refine ⟨⟨(i 0).val * 32 + 31, by omega⟩, (flush0_6 _).mpr (by show ((i 0).val * 32 + 31) % 32 = 31; omega), ?_⟩
    rw [mem_blk6]
    obtain ⟨-, -, -, -, -, -, -, -, -, e0, e1, e2⟩ := idx_facts ⟨(i 0).val * 32 + 31, by omega⟩
    intro a
    match a with
    | ⟨0, _⟩ => show win0_6.index _ (0 : Fin 3) * 1 ≤ (i 0).val ∧ (i 0).val < win0_6.index _ (0 : Fin 3) * 1 + 1; rw [e0]; show ((i 0).val * 32 + 31) / 32 * 1 ≤ _ ∧ _ < ((i 0).val * 32 + 31) / 32 * 1 + 1; omega
    | ⟨1, _⟩ => show win0_6.index _ (1 : Fin 3) * 1 ≤ (i 1).val ∧ (i 1).val < win0_6.index _ (1 : Fin 3) * 1 + 1; rw [e1]; omega
    | ⟨2, _⟩ => show win0_6.index _ (2 : Fin 3) * 1 ≤ (i 2).val ∧ (i 2).val < win0_6.index _ (2 : Fin 3) * 1 + 1; rw [e2]; omega

end Cert.Hist.KV
end
-- ==== Proof.KRun.lean ====
/-
  The kernel program's run, read: the loss it leaves is the loss function applied to the two normalised
  histograms that its host lines compute from the four output arrays, and those arrays hold the running values
  after the last step of each run of the grid.  The argument arrays end unchanged.
-/
import proofs.«134737_j32444182954404_2_alg».proof.Proof.KTail
import proofs.«134737_j32444182954404_2_alg».proof.Proof.KFinal

noncomputable section

open Idealize.ShloMosaic Idealize.ShloMosaic.TcCoe Idealize.SL.Sem
open Idealize.ShloMosaic.Pipeline (Dat)

namespace Cert.Hist.KV

open Cert.KernelIdeal Cert.KernelIdeal.Gen Cert.Hist

variable (m : (ℓ : Loc nD τ sig) → Buf (Elt Ideal) ℓ) (ρ : Dev nD → PrngReg)

/-- The loss the kernel program leaves, from the four output arrays' closed forms. -/
def kLoss (c : Dev nD) : FVec Ideal S_ .f32 :=
  tail (KT.norm (G3 m c) (G5 m c)) (KT.norm (G4 m c) (G6 m c))

theorem run_tail : θ_run defs (onTc (τ := τ) (main (F := Ideal))) ⟨m, fun _ => 0, ρ⟩ (fun r => ∀ c : Dev nD,
      r.2.mem ((c.tc : Thread nD τ).loc main_v27) = kLoss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v27 (Pipeline.mem_restRefs_of main_v27 (by decide) (by decide))).trans
        ((KT.tail_read m c).trans (by unfold kLoss; rw [final3, final4, final5, final6])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Hist.KV
end
-- ==== Proof.KPay.lean ====
/-
  One block of pixels, read one pixel at a time.

  A block holds 16384 pixels: column j of the two [32, 16384] feature blocks is pixel j's pair of channel
  vectors, and entry (0, j) of the [1, 16384] label block is its label.  This file shows that the block
  arithmetic computes, at column j, exactly the per-pixel quantities of the specification: the distance
  sqrt (Σ_k (x(k,j) − y(k,j) + ε)²), its bin, whether it lies in [0, 1], and whether the label is zero.
  Every step is either an elementwise operation (read at the index by definition) or the sum over the
  32 channels, which is a finite sum over the first coordinate.
-/
import proofs.«134737_j32444182954404_2_alg».proof.Proof.Gen.KernelIdeal.Skeleton
import proofs.«134737_j32444182954404_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hist.K

open Cert.KernelIdeal Cert.KernelIdeal.Gen Cert.Hist Idealize.ShloMosaic Idealize.ShloMosaic.ValueIdx

/-- A pixel's distance inside one block: column j of the two [32, 16384] feature blocks. -/
def Dblk (x0 x1 : Vec Ideal S32x16384 .f32) (j : Fin 16384) : EReal :=
  Cert.Hist.dist (fun k => x0 (ix2 k j)) (fun k => x1 (ix2 k j))

section Pointwise
variable {s : Shape} {φ : FTy} {w : Nat}
/-- The remaining elementwise operations read at an index (each is pointwise by definition). -/
theorem sqrt_apply (x : FVec Ideal s φ) (i : s.Idx) : sqrt x i = Ideal.sqrt (x i) := rfl
theorem floor_apply (x : FVec Ideal s φ) (i : s.Idx) : floor x i = Ideal.liftRound Int.floor (x i) := rfl
theorem fptosi_apply (v : Nat) (x : FVec Ideal s φ) (i : s.Idx) : fptosi v x i = Ideal.fptosi v (x i) := rfl
theorem maxsi_apply (x y : IVec s w) (i : s.Idx) : maxsi x y i = IntOp.maxsi (x i) (y i) := rfl
theorem minsi_apply (x y : IVec s w) (i : s.Idx) : minsi x y i = IntOp.minsi (x i) (y i) := rfl
theorem andi_apply (x y : IVec s w) (i : s.Idx) : andi x y i = IntOp.andi (x i) (y i) := rfl
theorem xori_apply (x y : IVec s w) (i : s.Idx) : xori x y i = IntOp.xori (x i) (y i) := rfl
theorem cmpi_apply (p : CmpIPredicate) (x y : IVec s w) (i : s.Idx) : cmpi p x y i = IntOp.cmpi p (x i) (y i) := rfl
end Pointwise

/-- The sum over the 32 channels (axis 0) of a [32, 16384] block, viewed as a [1, 16384] row, is at
    column j the sum of the block's column j. -/
theorem colsum_apply (v : FVec Ideal S32x16384 .f32) (h : S32x16384.Reduces [0] S16384) (hφ : FKind.Formats .f32)
    (hacc : (0x00000000#32 : BitVec 32) = FKind.add.neutral .f32 hφ) (hc : S16384.ShapeCasts S1x16384) (j : Fin 16384) :
    shapeCast S1x16384 (multiReduction (F := Ideal) .add [0] S16384 v 0x00000000#32 h hφ hacc) hc (ix2 0 j)
      = ∑ k : Fin 32, v (ix2 k j) := by
  refine (shapeCast_a_1a_apply _ _ 0 j).trans ?_
  refine (Ideal.multiReduction_add_single v _ h _ _ (ix1 j)).trans ?_
  refine Finset.sum_congr rfl fun k _ => congrArg v (funext fun a => Fin.ext ?_)
  match a with
  | ⟨0, _⟩ => rfl
  | ⟨1, _⟩ => rfl

theorem pay7_apply (x0 x1 : Vec Ideal S32x16384 .f32) (j : Fin 16384) :
    k0_pay7 (F := Ideal) x0 x1 (ix2 0 j) = Dblk x0 x1 j := by
  unfold k0_pay7
  dsimp only
  rw [shapeCast_self, shapeCast_self, sqrt_apply]
  unfold Dblk dist
  refine congrArg Ideal.sqrt ?_
  refine (colsum_apply _ _ _ _ _ j).trans ?_
  rfl

/-- The bin of the pixel in column j. -/
theorem pay11_apply (x0 x1 : Vec Ideal S32x16384 .f32) (j : Fin 16384) :
    k0_pay11 (F := Ideal) x0 x1 (ix2 0 j) = Cert.Hist.binOf (Dblk x0 x1 j) := by
  unfold k0_pay11
  rw [minsi_apply, maxsi_apply, fptosi_apply, floor_apply, mulf_apply, pay7_apply]
  rfl

/-- Whether the pixel in column j has its distance in [0, 1]. -/
theorem pay10_apply (x0 x1 : Vec Ideal S32x16384 .f32) (j : Fin 16384) :
    k0_pay10 (F := Ideal) x0 x1 (ix2 0 j) = Cert.Hist.inRange (Dblk x0 x1 j) := by
  unfold k0_pay10
  rw [andi_apply, cmpf_apply, cmpf_apply, pay7_apply]
  rfl

/-- Whether the label in column j is zero. -/
theorem pay8_apply (x2 : Vec Ideal S1x16384 .i32) (j : Fin 16384) :
    k0_pay8 (F := Ideal) x2 (ix2 0 j) = Cert.Hist.isPos (x2 (ix2 0 j)) := by
  unfold k0_pay8
  rw [shapeCast_self]
  rfl

/-- Whether the label in column j is not zero. -/
theorem pay9_apply (x2 : Vec Ideal S1x16384 .i32) (j : Fin 16384) :
    k0_pay9 (F := Ideal) x2 (ix2 0 j) = Cert.Hist.isNeg (x2 (ix2 0 j)) := by
  unfold k0_pay9
  rw [xori_apply, pay8_apply]
  rfl

end Cert.Hist.K
end
-- ==== Proof.KMat.lean ====
/-
  One block's step of the two histograms.

  The block builds a [128, 16384] one-hot matrix H (H(r, i) = 1 when pixel i's bin is r, else 0) and a
  [2, 16384] weight matrix W (row 0: 1 for a positive in-range pixel, row 1: 1 for a negative in-range
  pixel, else 0), and multiplies them over the pixel axis: (H · Wᵀ)(r, c) = Σ_i H(r, i) · W(c, i).  Column 0 of
  the product is added to the positive histogram and column 1 to the negative one.  So row r of either
  histogram gains the sum, over the block's pixels, of [bin = r] times the pixel's weight.  The only
  non-elementwise steps are the product (a finite sum over the shared axis), the spreading of a row or a
  column over the matrix, the stacking of the two weight rows, and the cut of one column out of the product.
-/
import proofs.«134737_j32444182954404_2_alg».proof.Proof.KPay

noncomputable section

open scoped BigOperators

namespace Cert.Hist.K

open Cert.KernelIdeal Cert.KernelIdeal.Gen Cert.Hist Idealize.ShloMosaic Idealize.ShloMosaic.ValueIdx

/-- A [128, 1] column spread over 16384 columns reads, at (r, c), the column's entry r. -/
theorem broadcastTo_col_apply {α : Type} (v : S128x1.Idx → α) (h : S128x1.Broadcasts S128x16384) (r : Fin 128) (c : Fin 16384) :
    broadcastTo S128x16384 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- The product of a [128, T] matrix with a [2, T] matrix over their shared second axis, T = 16384,
    into the zero matrix: entry (r, c) is the sum over the T columns of the two rows' products. -/
theorem mm_apply (lhs : FVec Ideal S128x16384 .bf16) (rhs : FVec Ideal S2x16384 .bf16) (r : Fin 128) (c : Fin 2) :
    matmul (F := Ideal) dot_S128x16384_S2x16384_S128x2_1_1_0_0_n_n none lhs rhs
        (constant (F := Ideal) S128x2 .f32 0x00000000#32) (ix2 r c)
      = ∑ i : Fin 16384, lhs (ix2 r i) * rhs (ix2 c i) := by
  refine (Ideal.matmul_constant_zero_apply dot_S128x16384_S2x16384_S128x2_1_1_0_0_n_n none lhs rhs (ix2 r c)).trans ?_
  refine (Equiv.sum_comp (contrEquiv1 dot_S128x16384_S2x16384_S128x2_1_1_0_0_n_n 16384 rfl rfl).symm _).symm.trans ?_
  refine Finset.sum_congr rfl fun i _ => ?_
  have hl : dot_S128x16384_S2x16384_S128x2_1_1_0_0_n_n.lhsIdx (ix2 r c)
      ((contrEquiv1 dot_S128x16384_S2x16384_S128x2_1_1_0_0_n_n 16384 rfl rfl).symm i) = ix2 r i := by
    funext a
    refine Fin.ext ?_
    match a with
    | ⟨0, _⟩ => rfl
    | ⟨1, _⟩ =>
      exact (DotDims.lhsIdx_val_of_single _ (cl := (1 : Fin 2)) rfl _ _).trans
        (contrEquiv1_symm_val dot_S128x16384_S2x16384_S128x2_1_1_0_0_n_n 16384 rfl rfl i)
  have hr : dot_S128x16384_S2x16384_S128x2_1_1_0_0_n_n.rhsIdx (ix2 r c)
      ((contrEquiv1 dot_S128x16384_S2x16384_S128x2_1_1_0_0_n_n 16384 rfl rfl).symm i) = ix2 c i := by
    funext a
    refine Fin.ext ?_
    match a with
    | ⟨0, _⟩ => rfl
    | ⟨1, _⟩ =>
      exact (DotDims.rhsIdx_val_of_single _ (cr := (1 : Fin 2)) rfl _ _).trans
        (contrEquiv1_symm_val dot_S128x16384_S2x16384_S128x2_1_1_0_0_n_n 16384 rfl rfl i)
  rw [hl, hr]

/-- The one-hot matrix: row r, column i is one when the bin of pixel i is r, else zero. -/
theorem onehot_apply (bins : IVec S1x16384 32) (h1 : S128x1.Iotas .tc 32 [0]) (h2 : S128x1.Broadcasts S128x16384)
    (h3 : S1x16384.Broadcasts S128x16384) (h4 : 1 < 32) (h5 : FTy.bf16.bits < FTy.f32.bits) (r : Fin 128) (i : Fin 16384) :
    (truncf .bf16 (sitofp (F := Ideal) .f32 (extui 32 (cmpi .eq (broadcastTo S128x16384 (iota .tc S128x1 32 [0] h1) h2)
        (broadcastTo S128x16384 bins h3)) h4)) h5) (ix2 r i) = Cert.Hist.hot r.val (bins (ix2 0 i)) := by
  rw [truncf_apply, sitofp_apply, extui_apply, cmpi_apply, broadcastTo_col_apply, broadcastTo_1b_ab_apply,
    iota_single_apply]
  rfl

/-- The two weight rows stacked: row 0 and row 1 of the [2, 16384] stack are the two [1, 16384] rows. -/
theorem stack_row0 (a b : FVec Ideal S1x16384 .f32) (h : Shape.Concatenates [S1x16384, S1x16384] S2x16384 0) (i : Fin 16384) :
    concatenate S2x16384 0 [⟨S1x16384, a⟩, ⟨S1x16384, b⟩] h (ix2 0 i) = a (ix2 0 i) := by
  refine concatenate_pair_apply_left (t := S2x16384) (s₁ := S1x16384) (s₂ := S1x16384) 0 a b h (ix2 0 i) rfl (ix2 0 i) fun ax => ?_
  match ax with
  | ⟨0, _⟩ => rfl
  | ⟨1, _⟩ => rfl

theorem stack_row1 (a b : FVec Ideal S1x16384 .f32) (h : Shape.Concatenates [S1x16384, S1x16384] S2x16384 0) (i : Fin 16384) :
    concatenate S2x16384 0 [⟨S1x16384, a⟩, ⟨S1x16384, b⟩] h (ix2 1 i) = b (ix2 0 i) := by
  refine concatenate_pair_apply_right (t := S2x16384) (s₁ := S1x16384) (s₂ := S1x16384) 0 a b h (ix2 1 i) rfl rfl (ix2 0 i)
    (fun ax hax => ?_) rfl
  match ax with
  | ⟨0, _⟩ => exact absurd rfl hax
  | ⟨1, _⟩ => rfl

/-- The block product's two columns: column 0 weighs the one-hot rows by the first weight row, column 1 by the
    second weight row (one where the condition bit is set, zero elsewhere). -/
theorem pay14_col0 (bins : IVec S1x16384 32) (w0 : FVec Ideal S1x16384 .f32) (c1 : IVec S1x16384 1) (one : Ideal .f32)
    (r : Fin 128) :
    k0_pay14 (F := Ideal) bins w0 c1 one (ix2 r 0)
      = ∑ i : Fin 16384, Cert.Hist.hot r.val (bins (ix2 0 i)) * w0 (ix2 0 i) := by
  unfold k0_pay14
  refine (mm_apply _ _ r 0).trans ?_
  refine Finset.sum_congr rfl fun i _ => ?_
  rw [onehot_apply, truncf_apply, stack_row0]

theorem pay14_col1 (bins : IVec S1x16384 32) (w0 : FVec Ideal S1x16384 .f32) (c1 : IVec S1x16384 1) (one : Ideal .f32)
    (r : Fin 128) :
    k0_pay14 (F := Ideal) bins w0 c1 one (ix2 r 1)
      = ∑ i : Fin 16384, Cert.Hist.hot r.val (bins (ix2 0 i)) * Scalar.select (c1 (ix2 0 i)) one Cert.Hist.fzero := by
  unfold k0_pay14
  refine (mm_apply _ _ r 1).trans ?_
  refine Finset.sum_congr rfl fun i _ => ?_
  rw [onehot_apply, truncf_apply, stack_row1, select_apply]
  rfl

/-- The positive weight of the pixel in column j: one when its label is zero and its distance is in range. -/
theorem pay12_apply (x0 x1 : Vec Ideal S32x16384 .f32) (x2 : Vec Ideal S1x16384 .i32) (j : Fin 16384) :
    k0_pay12 (F := Ideal) x0 x1 x2 (ix2 0 j)
      = Cert.Hist.wt (IntOp.andi (Cert.Hist.isPos (x2 (ix2 0 j))) (Cert.Hist.inRange (Dblk x0 x1 j))) := by
  unfold k0_pay12
  rw [select_apply, andi_apply, pay8_apply, pay10_apply]
  rfl

/-- The negative condition of the pixel in column j: its label is not zero and its distance is in range. -/
theorem pay13_apply (x0 x1 : Vec Ideal S32x16384 .f32) (x2 : Vec Ideal S1x16384 .i32) (j : Fin 16384) :
    k0_pay13 (F := Ideal) x0 x1 x2 (ix2 0 j)
      = IntOp.andi (Cert.Hist.isNeg (x2 (ix2 0 j))) (Cert.Hist.inRange (Dblk x0 x1 j)) := by
  unfold k0_pay13
  rw [andi_apply, pay9_apply, pay10_apply]

/-- One block's step of the positive histogram: row r gains the number of positive in-range pixels of bin r. -/
theorem pay16_apply (x0 x1 : Vec Ideal S32x16384 .f32) (x2 : Vec Ideal S1x16384 .i32) (acc : Vec Ideal S1x128x1 .f32)
    (r : Fin 128) :
    k0_pay16 (F := Ideal) (k0_pay11 x0 x1) (k0_pay12 x0 x1 x2) (k0_pay13 x0 x1 x2) (Scalar.ofBits .f32 0x3F800000#32) acc
        (ix3 0 r 0)
      = acc (ix3 0 r 0) + ∑ j : Fin 16384, Cert.Hist.hot r.val (Cert.Hist.binOf (Dblk x0 x1 j))
          * Cert.Hist.wt (IntOp.andi (Cert.Hist.isPos (x2 (ix2 0 j))) (Cert.Hist.inRange (Dblk x0 x1 j))) := by
  unfold k0_pay16
  rw [shapeCast_ab_1ab_apply, addf_apply, shapeCast_1ab_ab_apply,
    slice2_axis1_apply 0 _ _ r (0 : Fin 1) (0 : Fin 2) rfl, pay14_col0]
  refine congrArg (acc (ix3 0 r 0) + ·) (Finset.sum_congr rfl fun j _ => ?_)
  rw [pay11_apply, pay12_apply]

/-- One block's step of the negative histogram: row r gains the number of negative in-range pixels of bin r. -/
theorem pay17_apply (x0 x1 : Vec Ideal S32x16384 .f32) (x2 : Vec Ideal S1x16384 .i32) (acc : Vec Ideal S1x128x1 .f32)
    (r : Fin 128) :
    k0_pay17 (F := Ideal) (k0_pay11 x0 x1) (k0_pay12 x0 x1 x2) (k0_pay13 x0 x1 x2) (Scalar.ofBits .f32 0x3F800000#32) acc
        (ix3 0 r 0)
      = acc (ix3 0 r 0) + ∑ j : Fin 16384, Cert.Hist.hot r.val (Cert.Hist.binOf (Dblk x0 x1 j))
          * Cert.Hist.wt (IntOp.andi (Cert.Hist.isNeg (x2 (ix2 0 j))) (Cert.Hist.inRange (Dblk x0 x1 j))) := by
  unfold k0_pay17
  rw [shapeCast_ab_1ab_apply, addf_apply, shapeCast_1ab_ab_apply,
    slice2_axis1_apply 1 _ _ r (0 : Fin 1) (1 : Fin 2) rfl, pay14_col1]
  refine congrArg (acc (ix3 0 r 0) + ·) (Finset.sum_congr rfl fun j _ => ?_)
  rw [pay11_apply, pay13_apply]
  rfl

end Cert.Hist.K
end
-- ==== Proof.KCnt.lean ====
/-
  One block's step of the two pixel counts.

  The positive count gains Σ_i [label(i) = 0] and the negative count Σ_i [label(i) ≠ 0] over the block's 16384
  pixels: each label bit is widened to a 32-bit integer, read as a real (0 or 1), and the [1, 16384] row is
  summed along its second axis; the result, a single number, is added to the [1, 1, 1] accumulator.
-/
import proofs.«134737_j32444182954404_2_alg».proof.Proof.KPay

noncomputable section

open scoped BigOperators

namespace Cert.Hist.K

open Cert.KernelIdeal Cert.KernelIdeal.Gen Cert.Hist Idealize.ShloMosaic Idealize.ShloMosaic.ValueIdx

/-- The sum over the 16384 columns (axis 1) of a [1, 16384] row, viewed as a [1, 1] matrix, is the sum of the row. -/
theorem rowsum_apply (v : FVec Ideal S1x16384 .f32) (h : S1x16384.Reduces [1] S1) (hφ : FKind.Formats .f32)
    (hacc : (0x00000000#32 : BitVec 32) = FKind.add.neutral .f32 hφ) (hc : S1.ShapeCasts S1x1) :
    shapeCast S1x1 (multiReduction (F := Ideal) .add [1] S1 v 0x00000000#32 h hφ hacc) hc (ix2 0 0)
      = ∑ k : Fin 16384, v (ix2 0 k) := by
  refine (shapeCast_a_1a_apply _ _ 0 0).trans ?_
  refine (Ideal.multiReduction_add_single v _ h _ _ (ix1 0)).trans ?_
  refine Finset.sum_congr rfl fun k _ => congrArg v (funext fun a => Fin.ext ?_)
  match a with
  | ⟨0, _⟩ => rfl
  | ⟨1, _⟩ => rfl

/-- One block's step of the positive count: it gains the number of the block's pixels whose label is zero. -/
theorem pay18_apply (x2 : Vec Ideal S1x16384 .i32) (acc : Vec Ideal S1x1x1 .f32) :
    k0_pay1 (F := Ideal) (k0_pay18 (k0_pay8 x2) acc) (ix3 0 0 0)
      = acc (ix3 0 0 0) + ∑ j : Fin 16384, Cert.Hist.cnt (Cert.Hist.isPos (x2 (ix2 0 j))) := by
  unfold k0_pay1 k0_pay18
  rw [shapeCast_ab_1ab_apply, addf_apply, shapeCast_1ab_ab_apply]
  refine congrArg (acc (ix3 0 0 0) + ·) ((rowsum_apply _ _ _ _ _).trans (Finset.sum_congr rfl fun j _ => ?_))
  rw [sitofp_apply, extui_apply, pay8_apply]
  rfl

/-- One block's step of the negative count: it gains the number of the block's pixels whose label is not zero. -/
theorem pay15_apply (x2 : Vec Ideal S1x16384 .i32) (acc : Vec Ideal S1x1x1 .f32) :
    k0_pay2 (F := Ideal) (k0_pay15 (k0_pay9 x2)) acc (ix3 0 0 0)
      = acc (ix3 0 0 0) + ∑ j : Fin 16384, Cert.Hist.cnt (Cert.Hist.isNeg (x2 (ix2 0 j))) := by
  unfold k0_pay2 k0_pay15
  rw [shapeCast_ab_1ab_apply, addf_apply, shapeCast_1ab_ab_apply]
  refine congrArg (acc (ix3 0 0 0) + ·) ((rowsum_apply _ _ _ _ _).trans (Finset.sum_congr rfl fun j _ => ?_))
  rw [sitofp_apply, extui_apply, pay9_apply]
  rfl

end Cert.Hist.K
end
-- ==== Proof.KSums.lean ====
/-
  The running values in closed form.

  Each of the four running values starts a run at zero and gains, at grid position t, a term T(t) that depends
  only on position t's three input blocks: for the histograms, row r gains Σ_j [bin(j) = r] · weight(j) over
  the block's pixels j; for the counts, Σ_j [label(j) = 0] or Σ_j [label(j) ≠ 0].  By induction on the
  position, the value after position n is Σ T(k) over the positions k of n's run up to n, that is over
  n − n mod 32 ≤ k ≤ n.  The output arrays keep the value after the last position of each run, so row c'
  of an output array is Σ_{i < 32} T(32 c' + i).
-/
import proofs.«134737_j32444182954404_2_alg».proof.Proof.KFinal
import proofs.«134737_j32444182954404_2_alg».proof.Proof.KMat
import proofs.«134737_j32444182954404_2_alg».proof.Proof.KCnt
import proofs.«134737_j32444182954404_2_alg».proof.Proof.Spec

noncomputable section

open scoped BigOperators
open Idealize.ShloMosaic Idealize.ShloMosaic.TcCoe Idealize.SL.Sem Idealize.ShloMosaic.ValueIdx

namespace Cert.Hist.KV

open Cert.KernelIdeal Cert.KernelIdeal.Gen Cert.Hist Cert.Hist.K

/-- The four running values start from the real zero. -/
theorem zeros_1 (r : Fin 128) : (zeros (F := Ideal)).1 (ix3 0 r 0) = 0 := by
  show k0_pay3 (F := Ideal) (ix3 0 r 0) = 0
  unfold k0_pay3
  rw [shapeCast_ab_1ab_apply]
  exact Ideal.ofBits_zero_f32
theorem zeros_2 (r : Fin 128) : (zeros (F := Ideal)).2.1 (ix3 0 r 0) = 0 := by
  show k0_pay4 (F := Ideal) (ix3 0 r 0) = 0
  unfold k0_pay4
  rw [shapeCast_ab_1ab_apply]
  exact Ideal.ofBits_zero_f32
theorem zeros_3 : (zeros (F := Ideal)).2.2.1 (ix3 0 0 0) = 0 := by
  show k0_pay5 (F := Ideal) (ix3 0 0 0) = 0
  unfold k0_pay5
  rw [shapeCast_ab_1ab_apply]
  exact Ideal.ofBits_zero_f32
theorem zeros_4 : (zeros (F := Ideal)).2.2.2 (ix3 0 0 0) = 0 := by
  show k0_pay6 (F := Ideal) (ix3 0 0 0) = 0
  unfold k0_pay6
  rw [shapeCast_ab_1ab_apply]
  exact Ideal.ofBits_zero_f32

variable (m : (ℓ : Loc nD τ sig) → Buf (Elt Ideal) ℓ) (c : Dev nD)

/-- What grid position n adds to row r of the positive histogram, and of the negative one; and to the two counts.
    Zero past the grid. -/
def T3 (n : ℕ) (r : Fin 128) : EReal :=
  if h : n < cfg0.N then
    ∑ j : Fin 16384, hot r.val (binOf (Dblk (blk0 m c ⟨n, h⟩) (blk1 m c ⟨n, h⟩) j))
      * wt (IntOp.andi (isPos (blk2 m c ⟨n, h⟩ (ix2 0 j))) (inRange (Dblk (blk0 m c ⟨n, h⟩) (blk1 m c ⟨n, h⟩) j)))
  else 0
def T4 (n : ℕ) (r : Fin 128) : EReal :=
  if h : n < cfg0.N then
    ∑ j : Fin 16384, hot r.val (binOf (Dblk (blk0 m c ⟨n, h⟩) (blk1 m c ⟨n, h⟩) j))
      * wt (IntOp.andi (isNeg (blk2 m c ⟨n, h⟩ (ix2 0 j))) (inRange (Dblk (blk0 m c ⟨n, h⟩) (blk1 m c ⟨n, h⟩) j)))
  else 0
def T5 (n : ℕ) : EReal :=
  if h : n < cfg0.N then ∑ j : Fin 16384, cnt (isPos (blk2 m c ⟨n, h⟩ (ix2 0 j))) else 0
def T6 (n : ℕ) : EReal :=
  if h : n < cfg0.N then ∑ j : Fin 16384, cnt (isNeg (blk2 m c ⟨n, h⟩ (ix2 0 j))) else 0

/-- A quantity read off the running values that starts at zero and gains T(t) at position t is, after position n,
    the sum of T over the positions of n's run up to n. -/
theorem acc_closed (proj : Acc Ideal → EReal) (T : ℕ → EReal) (hz : proj zeros = 0)
    (hT : ∀ (t : Fin cfg0.N) (a : Acc Ideal), proj (stepAll (blk0 m c t) (blk1 m c t) (blk2 m c t) a) = proj a + T t.val) :
    ∀ (n : ℕ) (h : n < cfg0.N), proj (acc m c n h) = ∑ k ∈ Finset.Ico (n - n % 32) (n + 1), T k := by
  intro n
  induction n with
  | zero =>
    intro h
    rw [acc_zero, hT ⟨0, h⟩, hz, zero_add]
    simp
  | succ n ih =>
    intro h
    rw [acc_succ, hT ⟨n + 1, h⟩]
    by_cases h0 : (n + 1) % 32 = 0
    · rw [if_pos h0, hz, zero_add, h0, Nat.sub_zero, Nat.Ico_succ_singleton, Finset.sum_singleton]
    · rw [if_neg h0, ih (Nat.lt_of_succ_lt h)]
      have e : n + 1 - (n + 1) % 32 = n - n % 32 := by omega
      rw [e, Finset.sum_Ico_succ_top (by omega : n - n % 32 ≤ n + 1)]

/-- Row r of the positive histogram after position n. -/
theorem acc3_closed (n : ℕ) (h : n < cfg0.N) (r : Fin 128) :
    (acc m c n h).1 (ix3 0 r 0) = ∑ k ∈ Finset.Ico (n - n % 32) (n + 1), T3 m c k r :=
  acc_closed m c (fun a => a.1 (ix3 0 r 0)) (fun k => T3 m c k r) (zeros_1 r) (fun t a => by
    show k0_pay16 (F := Ideal) (k0_pay11 (blk0 m c t) (blk1 m c t)) (k0_pay12 (blk0 m c t) (blk1 m c t) (blk2 m c t))
      (k0_pay13 (blk0 m c t) (blk1 m c t) (blk2 m c t)) (Scalar.ofBits .f32 0x3F800000#32) a.1 (ix3 0 r 0) = a.1 (ix3 0 r 0) + T3 m c t.val r
    rw [T3, dif_pos t.isLt]
    exact pay16_apply _ _ _ _ r) n h

/-- Row r of the negative histogram after position n. -/
theorem acc4_closed (n : ℕ) (h : n < cfg0.N) (r : Fin 128) :
    (acc m c n h).2.1 (ix3 0 r 0) = ∑ k ∈ Finset.Ico (n - n % 32) (n + 1), T4 m c k r :=
  acc_closed m c (fun a => a.2.1 (ix3 0 r 0)) (fun k => T4 m c k r) (zeros_2 r) (fun t a => by
    show k0_pay17 (F := Ideal) (k0_pay11 (blk0 m c t) (blk1 m c t)) (k0_pay12 (blk0 m c t) (blk1 m c t) (blk2 m c t))
      (k0_pay13 (blk0 m c t) (blk1 m c t) (blk2 m c t)) (Scalar.ofBits .f32 0x3F800000#32) a.2.1 (ix3 0 r 0) = a.2.1 (ix3 0 r 0) + T4 m c t.val r
    rw [T4, dif_pos t.isLt]
    exact pay17_apply _ _ _ _ r) n h

/-- The positive count after position n. -/
theorem acc5_closed (n : ℕ) (h : n < cfg0.N) :
    (acc m c n h).2.2.1 (ix3 0 0 0) = ∑ k ∈ Finset.Ico (n - n % 32) (n + 1), T5 m c k :=
  acc_closed m c (fun a => a.2.2.1 (ix3 0 0 0)) (fun k => T5 m c k) zeros_3 (fun t a => by
    show k0_pay1 (F := Ideal) (k0_pay18 (k0_pay8 (blk2 m c t)) a.2.2.1) (ix3 0 0 0) = a.2.2.1 (ix3 0 0 0) + T5 m c t.val
    rw [T5, dif_pos t.isLt]
    exact pay18_apply _ _) n h

/-- The negative count after position n. -/
theorem acc6_closed (n : ℕ) (h : n < cfg0.N) :
    (acc m c n h).2.2.2 (ix3 0 0 0) = ∑ k ∈ Finset.Ico (n - n % 32) (n + 1), T6 m c k :=
  acc_closed m c (fun a => a.2.2.2 (ix3 0 0 0)) (fun k => T6 m c k) zeros_4 (fun t a => by
    show k0_pay2 (F := Ideal) (k0_pay15 (k0_pay9 (blk2 m c t))) a.2.2.2 (ix3 0 0 0) = a.2.2.2 (ix3 0 0 0) + T6 m c t.val
    rw [T6, dif_pos t.isLt]
    exact pay15_apply _ _) n h

/-- A run's 32 positions: the sum over the positions 32 c', …, 32 c' + 31 as a sum over i < 32. -/
theorem sum_run (T : ℕ → EReal) (c' : Fin 2) :
    ∑ k ∈ Finset.Ico (c'.val * 32 + 31 - (c'.val * 32 + 31) % 32) (c'.val * 32 + 31 + 1), T k
      = ∑ i : Fin 32, T (c'.val * 32 + i.val) := by
  have e : c'.val * 32 + 31 - (c'.val * 32 + 31) % 32 = c'.val * 32 := by omega
  have e2 : c'.val * 32 + 31 + 1 - c'.val * 32 = 32 := by omega
  rw [e, Finset.sum_Ico_eq_sum_range, e2, Finset.sum_range]

theorem run_lt (c' : Fin 2) : c'.val * 32 + 31 < cfg0.N := by
  have hN : cfg0.N = 64 := N_0
  have := c'.isLt
  omega

/-- Row c' of each output array sums its run's 32 positions. -/
theorem G3_entry (c' : Fin 2) (r : Fin 128) :
    G3 m c (ix3 c' r 0) = ∑ i : Fin 32, T3 m c (c'.val * 32 + i.val) r := by
  show (accT m c (c'.val * 32 + 31)).1 (ix3 0 r 0) = _
  rw [accT_eq m c _ (run_lt c'), acc3_closed]
  exact sum_run (fun k => T3 m c k r) c'

theorem G4_entry (c' : Fin 2) (r : Fin 128) :
    G4 m c (ix3 c' r 0) = ∑ i : Fin 32, T4 m c (c'.val * 32 + i.val) r := by
  show (accT m c (c'.val * 32 + 31)).2.1 (ix3 0 r 0) = _
  rw [accT_eq m c _ (run_lt c'), acc4_closed]
  exact sum_run (fun k => T4 m c k r) c'

theorem G5_entry (c' : Fin 2) :
    G5 m c (ix3 c' 0 0) = ∑ i : Fin 32, T5 m c (c'.val * 32 + i.val) := by
  show (accT m c (c'.val * 32 + 31)).2.2.1 (ix3 0 0 0) = _
  rw [accT_eq m c _ (run_lt c'), acc5_closed]
  exact sum_run (fun k => T5 m c k) c'

theorem G6_entry (c' : Fin 2) :
    G6 m c (ix3 c' 0 0) = ∑ i : Fin 32, T6 m c (c'.val * 32 + i.val) := by
  show (accT m c (c'.val * 32 + 31)).2.2.2 (ix3 0 0 0) = _
  rw [accT_eq m c _ (run_lt c'), acc6_closed]
  exact sum_run (fun k => T6 m c k) c'

end Cert.Hist.KV
end
-- ==== Proof.KBlocks.lean ====
/-
  The kernel's input blocks are runs of pixels of the flattened arrays.

  Before the region the host lines flatten the two feature arrays to [32, 1048576] and the labels to
  [1, 1048576].  Grid position t stages columns 16384 t … 16384 t + 16383 of each, so entry (k, j) of a feature
  block at position t is entry (k, 16384 t + j) of the flattened array, and entry (0, j) of the label block is
  the label of pixel 16384 t + j.  Hence a block's pixel distance is the pixel's distance in the sense of the
  specification.
-/
import proofs.«134737_j32444182954404_2_alg».proof.Proof.KChain
import proofs.«134737_j32444182954404_2_alg».proof.Proof.KPay
import proofs.«134737_j32444182954404_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.Hist.KV

open Cert.KernelIdeal Cert.KernelIdeal.Gen Cert.Hist

variable (m : (ℓ : Loc nD τ sig) → Buf (Elt Ideal) ℓ)

/-- Each input window's block index at position t is (0, t). -/
theorem in_idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The flattened arrays as the region finds them. -/
def X0 (c : Dev nD) : SX.Idx → EReal := V m c main_v0
def X1 (c : Dev nD) : SX.Idx → EReal := V m c main_v1
def gl (c : Dev nD) : SG.Idx → BitVec 32 := fun i => V m c main_v2 (ix2 (0 : Fin 1) (i 0))

/-- They are the reshapes of the argument arrays. -/
theorem X0_eq (c : Dev nD) : X0 m c = shapeCast SX (m ((c : Thread nD τ).loc main_arg0)) shapeCasts_S1x32x1024x1024_S32x1048576 := by
  show StableHlo.after hostOps0 (fun b => m (c, b)) (Proc.devRef .tc main_v0) = _
  after_results; rfl
theorem X1_eq (c : Dev nD) : X1 m c = shapeCast SX (m ((c : Thread nD τ).loc main_arg1)) shapeCasts_S1x32x1024x1024_S32x1048576 := by
  show StableHlo.after hostOps0 (fun b => m (c, b)) (Proc.devRef .tc main_v1) = _
  after_results; rfl
theorem V2_eq (c : Dev nD) : (V m c main_v2 : S1x1048576.Idx → BitVec 32) = shapeCast S1x1048576 (m ((c : Thread nD τ).loc main_arg2)) shapeCasts_S1x1024x1024_S1x1048576 := by
  show StableHlo.after hostOps0 (fun b => m (c, b)) (Proc.devRef .tc main_v2) = _
  after_results; rfl

/-- Flattening the labels to [1, 1048576] and reading (0, p) is flattening them to [1048576] and reading p. -/
theorem gl_eq (c : Dev nD) (h : S1x1024x1024.ShapeCasts SG) :
    gl m c = shapeCast SG (m ((c : Thread nD τ).loc main_arg2)) h := by
  funext i
  obtain ⟨p, rfl⟩ : ∃ p : Fin 1048576, i = ix1 p := ⟨i 0, eq_ix1 i⟩
  show V m c main_v2 (ix2 (0 : Fin 1) p) = _
  rw [V2_eq]
  refine shapeCast_apply _ _ _ (Shape.reshapeEquiv h (ix1 p)) ?_
  rw [Shape.rowMajor_reshapeEquiv, Shape.rowMajor_val_two, Shape.rowMajor_val_one]
  show p.val = 0 * 1048576 + p.val
  omega

/-- Pixel j of the block at position t. -/
def pix (t : Fin cfg0.N) (j : Fin 16384) : Fin P :=
  ⟨t.val * 16384 + j.val, by have h : t.val < 64 := lt_of_lt_of_eq t.isLt N_0; have := j.isLt; show _ < 1048576; omega⟩

theorem blk0_apply (c : Dev nD) (t : Fin cfg0.N) (k : Fin 32) (j : Fin 16384) :
    blk0 m c t (ix2 k j) = X0 m c (ix2 k (pix t j)) := by
  obtain ⟨e0, e1, -⟩ := in_idx_facts t
  show iblk m c 0 t (ix2 k j) = _
  unfold iblk X0
  rw [View.read_apply]
  show V m c main_v0 (((cfg0.win 0).blk t).view.emb (ix2 k j)) = _
  refine congrArg (V m c main_v0) ?_
  funext a
  apply Fin.ext
  match a with
  | ⟨0, _⟩ => show win0_0.index t (0 : Fin 2) * 32 + 1 * k.val = k.val; omega
  | ⟨1, _⟩ => show win0_0.index t (1 : Fin 2) * 16384 + 1 * j.val = t.val * 16384 + j.val; omega

theorem blk1_apply (c : Dev nD) (t : Fin cfg0.N) (k : Fin 32) (j : Fin 16384) :
    blk1 m c t (ix2 k j) = X1 m c (ix2 k (pix t j)) := by
  obtain ⟨-, -, e0, e1, -⟩ := in_idx_facts t
  show iblk m c 1 t (ix2 k j) = _
  unfold iblk X1
  rw [View.read_apply]
  show V m c main_v1 (((cfg0.win 1).blk t).view.emb (ix2 k j)) = _
  refine congrArg (V m c main_v1) ?_
  funext a
  apply Fin.ext
  match a with
  | ⟨0, _⟩ => show win0_1.index t (0 : Fin 2) * 32 + 1 * k.val = k.val; omega
  | ⟨1, _⟩ => show win0_1.index t (1 : Fin 2) * 16384 + 1 * j.val = t.val * 16384 + j.val; omega

theorem blk2_apply (c : Dev nD) (t : Fin cfg0.N) (j : Fin 16384) :
    blk2 m c t (ix2 (0 : Fin 1) j) = gl m c (ix1 (pix t j)) := by
  obtain ⟨-, -, -, -, e0, e1⟩ := in_idx_facts t
  show iblk m c 2 t (ix2 (0 : Fin 1) j) = _
  unfold iblk gl
  rw [View.read_apply]
  show V m c main_v2 (((cfg0.win 2).blk t).view.emb (ix2 (0 : Fin 1) j)) = _
  refine congrArg (V m c main_v2) ?_
  funext a
  apply Fin.ext
  match a with
  | ⟨0, _⟩ => show win0_2.index t (0 : Fin 2) * 1 + 1 * 0 = 0; omega
  | ⟨1, _⟩ => show win0_2.index t (1 : Fin 2) * 16384 + 1 * j.val = t.val * 16384 + j.val; omega

/-- A block's pixel distance is the pixel's distance. -/
theorem Dblk_eq (c : Dev nD) (t : Fin cfg0.N) (j : Fin 16384) :
    K.Dblk (blk0 m c t) (blk1 m c t) j = D (X0 m c) (X1 m c) (pix t j) := by
  have e0 : (fun k : Fin 32 => blk0 m c t (ix2 k j)) = fun k => X0 m c (ix2 k (pix t j)) := funext fun k => blk0_apply m c t k j
  have e1 : (fun k : Fin 32 => blk1 m c t (ix2 k j)) = fun k => X1 m c (ix2 k (pix t j)) := funext fun k => blk1_apply m c t k j
  show dist (fun k : Fin 32 => blk0 m c t (ix2 k j)) (fun k : Fin 32 => blk1 m c t (ix2 k j)) = dist (fun k => X0 m c (ix2 k (pix t j))) (fun k => X1 m c (ix2 k (pix t j)))
  rw [e0, e1]

end Cert.Hist.KV
end
-- ==== Proof.LibPixelSum.lean ====
/-
  A sum over the 1048576 = 2 · 32 · 16384 positions of a flattened array, taken block by block:
  position p is written uniquely as (c · 32 + i) · 16384 + j with c < 2, i < 32, j < 16384, so the
  sum over all positions is the triple sum over (c, i, j).
-/
import Mathlib.Algebra.BigOperators.Fin
import Mathlib.Data.Fintype.BigOperators

open scoped BigOperators

namespace Cert.Hist

/-- The positions below 1048576 correspond one to one to the triples (c, i, j): the triple goes to
    (c · 32 + i) · 16384 + j, and a position p comes from its quotient by 524288, the remainder
    modulo 32 of its quotient by 16384, and its remainder modulo 16384. -/
def pixelEquiv : Fin 2 × Fin 32 × Fin 16384 ≃ Fin 1048576 where
  toFun q := ⟨(q.1.val * 32 + q.2.1.val) * 16384 + q.2.2.val, by
    have := q.1.isLt; have := q.2.1.isLt; have := q.2.2.isLt; omega⟩
  invFun p := (⟨p.val / 524288, by have := p.isLt; omega⟩, ⟨p.val / 16384 % 32, by omega⟩,
    ⟨p.val % 16384, by omega⟩)
  left_inv q := by
    obtain ⟨c, i, j⟩ := q
    have := c.isLt; have := i.isLt; have := j.isLt
    refine Prod.ext (Fin.ext ?_) (Prod.ext (Fin.ext ?_) (Fin.ext ?_)) <;> simp only [] <;> omega
  right_inv p := by
    refine Fin.ext ?_
    have := p.isLt
    simp only []
    omega

/-- The sum over all positions is the sum over the blocks c, the rows i of a block, and the
    places j of a row. -/
theorem sum_pixels {M : Type} [AddCommMonoid M] (f : Fin 1048576 → M) :
    ∑ p : Fin 1048576, f p
      = ∑ c : Fin 2, ∑ i : Fin 32, ∑ j : Fin 16384, f ⟨(c.val * 32 + i.val) * 16384 + j.val, by omega⟩ := by
  rw [← Equiv.sum_comp pixelEquiv f, Fintype.sum_prod_type]
  refine Finset.sum_congr rfl fun c _ => ?_
  rw [Fintype.sum_prod_type]
  rfl

end Cert.Hist
-- ==== Proof.KNorm.lean ====
/-
  The per-position terms, summed over the grid, are the specification's histograms and sizes.

  Position t contributes to row r of the positive histogram the count of the positive in-range pixels of bin r
  among the pixels 16384 t … 16384 t + 16383; the 64 positions split the 1048576 pixels into consecutive runs,
  so the sum over the positions (run by run, step by step) is the sum over all pixels.  The same holds for the
  negative histogram and the two sizes.
-/
import proofs.«134737_j32444182954404_2_alg».proof.Proof.KSums
import proofs.«134737_j32444182954404_2_alg».proof.Proof.KBlocks
import proofs.«134737_j32444182954404_2_alg».proof.Proof.LibPixelSum

noncomputable section

open Idealize.ShloMosaic Idealize.ShloMosaic.TcCoe Idealize.SL.Sem Idealize.ShloMosaic.ValueIdx

namespace Cert.Hist.KV

open Cert.KernelIdeal Cert.KernelIdeal.Gen Cert.Hist Cert.Hist.K

variable (m : (ℓ : Loc nD τ sig) → Buf (Elt Ideal) ℓ) (c : Dev nD)

theorem pos_lt (c' : Fin 2) (i : Fin 32) : c'.val * 32 + i.val < cfg0.N := by
  have h1 := c'.isLt; have h2 := i.isLt
  show _ < grid0.N
  rw [N_0]; omega

/-- Position t's term of the positive histogram, over the pixels of its block. -/
theorem T3_eq (t : Fin cfg0.N) (r : Fin 128) :
    T3 m c t.val r = ∑ j : Fin 16384, hot r.val (binOf (D (X0 m c) (X1 m c) (pix t j))) * wPos (X0 m c) (X1 m c) (gl m c) (pix t j) := by
  unfold T3
  rw [dif_pos t.isLt]
  refine Finset.sum_congr rfl fun j _ => ?_
  show hot r.val (binOf (Dblk (blk0 m c t) (blk1 m c t) j)) * wt (IntOp.andi (isPos (blk2 m c t (ix2 0 j))) (inRange (Dblk (blk0 m c t) (blk1 m c t) j))) = _
  rw [Dblk_eq, blk2_apply]
  rfl

theorem T4_eq (t : Fin cfg0.N) (r : Fin 128) :
    T4 m c t.val r = ∑ j : Fin 16384, hot r.val (binOf (D (X0 m c) (X1 m c) (pix t j))) * wNeg (X0 m c) (X1 m c) (gl m c) (pix t j) := by
  unfold T4
  rw [dif_pos t.isLt]
  refine Finset.sum_congr rfl fun j _ => ?_
  show hot r.val (binOf (Dblk (blk0 m c t) (blk1 m c t) j)) * wt (IntOp.andi (isNeg (blk2 m c t (ix2 0 j))) (inRange (Dblk (blk0 m c t) (blk1 m c t) j))) = _
  rw [Dblk_eq, blk2_apply]
  rfl

theorem T5_eq (t : Fin cfg0.N) : T5 m c t.val = ∑ j : Fin 16384, cnt (isPos (gl m c (ix1 (pix t j)))) := by
  unfold T5
  rw [dif_pos t.isLt]
  refine Finset.sum_congr rfl fun j _ => ?_
  show cnt (isPos (blk2 m c t (ix2 0 j))) = _
  rw [blk2_apply]

theorem T6_eq (t : Fin cfg0.N) : T6 m c t.val = ∑ j : Fin 16384, cnt (isNeg (gl m c (ix1 (pix t j)))) := by
  unfold T6
  rw [dif_pos t.isLt]
  refine Finset.sum_congr rfl fun j _ => ?_
  show cnt (isNeg (blk2 m c t (ix2 0 j))) = _
  rw [blk2_apply]

/-- Summed over the grid, the terms are the histograms and the sizes of the specification. -/
theorem sum_T3 (r : Fin 128) :
    ∑ c' : Fin 2, ∑ i : Fin 32, T3 m c (c'.val * 32 + i.val) r = histPos (X0 m c) (X1 m c) (gl m c) r.val := by
  unfold histPos
  rw [sum_pixels]
  refine Finset.sum_congr rfl fun c' _ => Finset.sum_congr rfl fun i _ => ?_
  exact T3_eq m c ⟨c'.val * 32 + i.val, pos_lt c' i⟩ r

theorem sum_T4 (r : Fin 128) :
    ∑ c' : Fin 2, ∑ i : Fin 32, T4 m c (c'.val * 32 + i.val) r = histNeg (X0 m c) (X1 m c) (gl m c) r.val := by
  unfold histNeg
  rw [sum_pixels]
  refine Finset.sum_congr rfl fun c' _ => Finset.sum_congr rfl fun i _ => ?_
  exact T4_eq m c ⟨c'.val * 32 + i.val, pos_lt c' i⟩ r

theorem sum_T5 : ∑ c' : Fin 2, ∑ i : Fin 32, T5 m c (c'.val * 32 + i.val) = sizePos (gl m c) := by
  unfold sizePos
  rw [sum_pixels]
  refine Finset.sum_congr rfl fun c' _ => Finset.sum_congr rfl fun i _ => ?_
  exact T5_eq m c ⟨c'.val * 32 + i.val, pos_lt c' i⟩

theorem sum_T6 : ∑ c' : Fin 2, ∑ i : Fin 32, T6 m c (c'.val * 32 + i.val) = sizeNeg (gl m c) := by
  unfold sizeNeg
  rw [sum_pixels]
  refine Finset.sum_congr rfl fun c' _ => Finset.sum_congr rfl fun i _ => ?_
  exact T6_eq m c ⟨c'.val * 32 + i.val, pos_lt c' i⟩

end Cert.Hist.KV
end
-- ==== Proof.KNormApply.lean ====
/-
  The normalised histogram the kernel program's host lines compute, read at one bin: the two halves'
  partial histograms added at that row, divided by the two halves' partial sizes added.
-/
import proofs.«134737_j32444182954404_2_alg».proof.Proof.KTail

noncomputable section

open scoped BigOperators

namespace Cert.Hist.KT

open Idealize.ShloMosaic Idealize.ShloMosaic.TcCoe
open Idealize.SL.Sem
open Cert.KernelIdeal Cert.KernelIdeal.Gen

/-- An index of a [2, 1, 1] array is its first coordinate. -/
private def idxEquiv211 : S2x1x1.Idx ≃ Fin 2 where
  toFun i := i 0
  invFun c := ValueIdx.ix3 c (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- THE NORMALISED HISTOGRAM AT BIN b: the two halves' row b added, over the two halves' sizes added. -/
theorem norm_apply (A3 : FVec Ideal S2x128x1 .f32) (A5 : FVec Ideal S2x1x1 .f32) (b : Fin 100) :
    norm A3 A5 (ValueIdx.ix1 b)
      = Ideal.div (∑ c : Fin 2, A3 (ValueIdx.ix3 c (Fin.castLE (by decide : 100 ≤ 128) b) (0 : Fin 1)))
          (∑ c : Fin 2, A5 (ValueIdx.ix3 c (0 : Fin 1) (0 : Fin 1))) := by
  have hR : S2x128x1.Reduces [0] S128x1 := by decide
  -- the numerator: row b of the first 100 rows of the sum of the two halves
  have hnum : shapeCast S100
      (extractStridedSlice S100x1 ![0, 0]
        (Host.reduceAdd A3 (constant (F := Ideal) S_ .f32 0x00000000#32) reducesTo_S2x128x1_S128x1_d0 h_S_)
        slices_S128x1_S100x1_0_0) shapeCasts_S100x1_S100 (ValueIdx.ix1 b)
      = ∑ c : Fin 2, A3 (ValueIdx.ix3 c (Fin.castLE (by decide : 100 ≤ 128) b) (0 : Fin 1)) := by
    rw [shapeCast_apply _ _ (ValueIdx.ix1 b) (ValueIdx.ix2 b (0 : Fin 1))
      (by rw [Shape.rowMajor_val_two, Shape.rowMajor_val_one]; simp)]
    show Ideal.hostReduceAdd reducesTo_S2x128x1_S128x1_d0 A3 (Ideal.ofBits .f32 0x00000000#32) _ = _
    rw [Ideal.hostReduceAdd_single _ hR, Ideal.ofBits_zero_f32, zero_add]
    refine Finset.sum_congr rfl fun k _ => congrArg A3 (funext fun a => Fin.ext ?_)
    match a with
    | ⟨0, _⟩ => rfl
    | ⟨1, _⟩ => exact Nat.zero_add _
    | ⟨2, _⟩ => rfl
  -- the denominator: the sum of the two halves' sizes, the same at every bin
  have hden : broadcastInDim S100 ![] bcast_S_S100
      (Host.reduceAdd A5 (constant (F := Ideal) S_ .f32 0x00000000#32) reducesTo_S2x1x1_S_d0_1_2 h_S_)
      (ValueIdx.ix1 b) = ∑ c : Fin 2, A5 (ValueIdx.ix3 c (0 : Fin 1) (0 : Fin 1)) := by
    show Ideal.hostReduceAdd reducesTo_S2x1x1_S_d0_1_2 A5 (Ideal.ofBits .f32 0x00000000#32) _ = _
    rw [Ideal.hostReduceAdd_total _ (fun b => b.elim0), Ideal.ofBits_zero_f32, zero_add,
      ← Equiv.sum_comp idxEquiv211.symm]
    rfl
  show Ideal.div _ _ = _
  rw [hnum, hden]

end Cert.Hist.KT

end
-- ==== Proof.KValue.lean ====
/-
  The kernel program's two normalised histograms are the specification's.

  The host lines after the region add the two runs' rows of each output array (row c holds the sum of the 32
  per-position terms of run c), keep the first 100 rows, and divide by the summed counts.  The sums over the two
  runs of the per-position terms are the specification's histograms and sizes, so the quotients are the
  specification's normalised histograms, and the loss the kernel program leaves is the loss function of them.
-/
import proofs.«134737_j32444182954404_2_alg».proof.Proof.KRun
import proofs.«134737_j32444182954404_2_alg».proof.Proof.KNorm
import proofs.«134737_j32444182954404_2_alg».proof.Proof.KNormApply

noncomputable section

open Idealize.ShloMosaic Idealize.ShloMosaic.TcCoe Idealize.SL.Sem Idealize.ShloMosaic.ValueIdx

namespace Cert.Hist.KV

open Cert.KernelIdeal Cert.KernelIdeal.Gen Cert.Hist

variable (m : (ℓ : Loc nD τ sig) → Buf (Elt Ideal) ℓ) (ρ : Dev nD → PrngReg)

theorem knorm_pos (c : Dev nD) : KT.norm (G3 m c) (G5 m c) = normPos (X0 m c) (X1 m c) (gl m c) := by
  funext i
  obtain ⟨b, rfl⟩ : ∃ b : Fin 100, i = ix1 b := ⟨i 0, eq_ix1 i⟩
  rw [KT.norm_apply]
  show _ = Ideal.div (histPos (X0 m c) (X1 m c) (gl m c) b.val) (sizePos (gl m c))
  exact congrArg₂ Ideal.div
    ((Finset.sum_congr rfl fun c' _ => G3_entry m c c' _).trans (sum_T3 m c (Fin.castLE (by decide : 100 ≤ 128) b)))
    ((Finset.sum_congr rfl fun c' _ => G5_entry m c c').trans (sum_T5 m c))

theorem knorm_neg (c : Dev nD) : KT.norm (G4 m c) (G6 m c) = normNeg (X0 m c) (X1 m c) (gl m c) := by
  funext i
  obtain ⟨b, rfl⟩ : ∃ b : Fin 100, i = ix1 b := ⟨i 0, eq_ix1 i⟩
  rw [KT.norm_apply]
  show _ = Ideal.div (histNeg (X0 m c) (X1 m c) (gl m c) b.val) (sizeNeg (gl m c))
  exact congrArg₂ Ideal.div
    ((Finset.sum_congr rfl fun c' _ => G4_entry m c c' _).trans (sum_T4 m c (Fin.castLE (by decide : 100 ≤ 128) b)))
    ((Finset.sum_congr rfl fun c' _ => G6_entry m c c').trans (sum_T6 m c))

/-- The loss the kernel program leaves is the loss function of the specification's normalised histograms. -/
theorem kLoss_eq (c : Dev nD) :
    kLoss m c = tail (normPos (X0 m c) (X1 m c) (gl m c)) (normNeg (X0 m c) (X1 m c) (gl m c)) := by
  unfold kLoss
  rw [knorm_pos, knorm_neg]

end Cert.Hist.KV
end
-- ==== Proof.RefScalar.lean ====
/-
  Word and bit facts behind a pixel's bin, weight and row indicator.

  A pixel's bin is a signed 32-bit word clamped to [0, 99], so it is never negative and the wrap-around
  that a negative index would get is the identity on it.  A bin selects row r of the histogram exactly
  when its signed value is r.  A bit converted to a real is the real one or zero, which is also what
  selecting between the two float constants one and zero by that bit gives.  Negating a bit is
  flipping it against one.
-/
import Idealize.ShloMosaic.PureOps.Ideal
import Idealize.ShloMosaic.PureOps.Ideal.Laws
import Idealize.ShloMosaic.Lib.IdealHost
import Idealize.ShloMosaic.Lib.WordArith
import proofs.«134737_j32444182954404_2_alg».proof.Proof.Spec

noncomputable section

namespace Cert.Hist

open Idealize.ShloMosaic Idealize.ShloMosaic.WordArith

/-- The two float constants as extended reals. -/
theorem fzero_eq : fzero = 0 := by
  unfold fzero; rw [Ideal.ofBits_def]; exact Ideal.ofBits_zero_f32

theorem fone_eq : fone = 1 := by
  unfold fone; rw [Ideal.ofBits_def]; exact Ideal.ofBits_one_f32

/-- A word clamped below by 0 and above by 99 has a signed value in [0, 99]. -/
theorem clamp_range (v : BitVec 32) :
    0 ≤ (IntOp.minsi 99#32 (IntOp.maxsi 0#32 v)).toInt ∧ (IntOp.minsi 99#32 (IntOp.maxsi 0#32 v)).toInt ≤ 99 := by
  have hm := toInt_maxsi_zero v
  generalize IntOp.maxsi 0#32 v = m at hm ⊢
  have h99 : (99#32 : BitVec 32).toInt = 99 := by decide
  unfold IntOp.minsi BitVec.slt
  by_cases h : (99#32 : BitVec 32).toInt < m.toInt
  · rw [if_pos (by simpa using h), h99]; omega
  · rw [if_neg (by simpa using h)]; rw [h99] at h; omega

/-- So a bin's signed value lies in [0, 99]. -/
theorem binOf_range (d : EReal) : 0 ≤ (binOf d).toInt ∧ (binOf d).toInt ≤ 99 := clamp_range _

/-- On such a word the wrap of a negative index (add 100 when below zero) changes nothing. -/
theorem wrap_clamp (v : BitVec 32) :
    Scalar.select (IntOp.cmpi .slt (IntOp.minsi 99#32 (IntOp.maxsi 0#32 v)) 0#32)
        (IntOp.addi (IntOp.minsi 99#32 (IntOp.maxsi 0#32 v)) 100#32) (IntOp.minsi 99#32 (IntOp.maxsi 0#32 v))
      = IntOp.minsi 99#32 (IntOp.maxsi 0#32 v) := by
  obtain ⟨h0, _⟩ := clamp_range v
  generalize IntOp.minsi 99#32 (IntOp.maxsi 0#32 v) = b at h0 ⊢
  have hz : (0#32 : BitVec 32).toInt = 0 := by decide
  have hc : IntOp.cmpi .slt b 0#32 = 0#1 := by
    unfold IntOp.cmpi BitVec.slt
    rw [hz, decide_eq_false (by omega)]; rfl
  rw [hc, ValueIdx.select_zero]

/-- The row indicator times a weight: the weight when the bin's signed value is the row, else zero. -/
theorem hot_mul (b : Fin 100) (w : BitVec 32) (h0 : 0 ≤ w.toInt) (h1 : w.toInt ≤ 99) (u : EReal) :
    hot b.val w * u = if w.toInt = (b.val : Int) then u else 0 := by
  have hb : b.val < 2 ^ 31 := by have := b.isLt; omega
  unfold hot cnt IntOp.cmpi
  by_cases h : w.toInt = (b.val : Int)
  · have hw : BitVec.ofNat 32 b.val = w :=
      BitVec.eq_of_toInt_eq (by rw [toInt_ofNat_small _ hb]; exact h.symm)
    rw [if_pos h, hw]
    have e : ((BitVec.ofBool (w == w)).setWidth 32).toInt = 1 := by
      rw [beq_self_eq_true]; decide
    rw [e, Int.cast_one, EReal.coe_one, one_mul]
  · have hw : (BitVec.ofNat 32 b.val == w) = false := by
      rw [beq_eq_false_iff_ne]; intro e; exact h (by rw [← e, toInt_ofNat_small _ hb])
    rw [if_neg h, hw]
    have e : ((BitVec.ofBool false).setWidth 32).toInt = 0 := by decide
    rw [e, Int.cast_zero, EReal.coe_zero, zero_mul]

/-- A bit read as an unsigned number and made real is the weight one or zero. -/
theorem uitofp_bit (c : BitVec 1) : ((c.toNat : ℝ) : EReal) = wt c := by
  unfold wt
  rcases BitVec.eq_zero_or_eq_one c with h | h <;> subst h
  · rw [ValueIdx.select_zero, fzero_eq]; simp
  · rw [ValueIdx.select_one, fone_eq]; simp

/-- Negating a bit flips it against one. -/
theorem not_bit (c : BitVec 1) : ~~~c = IntOp.xori c 1#1 := by
  rcases BitVec.eq_zero_or_eq_one c with h | h <;> subst h <;> decide

end Cert.Hist

end
-- ==== Proof.RefPixel.lean ====
/-
  The reference program read one pixel at a time.

  The reference flattens its two feature arrays to [32, 1048576] and its labels to [1048576]; call the
  flattened arrays x, y and g.  Reading each of its intermediate arrays at pixel p and following the
  operations back to x, y and g gives: the distance array at p is the pixel's distance D(p); the
  clamped bin array at p is the bin of D(p), and the index wrap that follows does not move it; the two
  in-range masks at p are the in-range bit of D(p); the label masks at p are the positive and negative
  bits of g(p); and the two update arrays at p are the pixel's positive and negative weights.
-/
import proofs.«134737_j32444182954404_2_alg».proof.Proof.RefRead
import proofs.«134737_j32444182954404_2_alg».proof.Proof.RefScalar
import Idealize.ShloMosaic.Lib.ValueIdx

noncomputable section

open scoped BigOperators

namespace Cert.Hist.Ref

open Idealize.ShloMosaic Idealize.ShloMosaic.ValueIdx Cert.ReferenceIdeal Cert.ReferenceIdeal.ReadP

section
variable (A0 A1 : (⟨S1x32x1024x1024, .f32⟩ : BufTy).Contents (Elt Ideal))
  (G : (⟨S1x1024x1024, .i32⟩ : BufTy).Contents (Elt Ideal))

/-- The flattened feature arrays and the flattened labels. -/
abbrev X0 : SX.Idx → EReal := val_main_v0 (F := Ideal) A0
abbrev X1 : SX.Idx → EReal := val_main_v2 (F := Ideal) A1
abbrev gl : SG.Idx → BitVec 32 := val_main_v10 (F := Ideal) G

/-- They are the reshapes of the arguments, whichever proof of the reshape's shape fact is used. -/
theorem X0_eq (h : S1x32x1024x1024.ShapeCasts SX) : X0 A0 = shapeCast SX A0 h := rfl
theorem X1_eq (h : S1x32x1024x1024.ShapeCasts SX) : X1 A1 = shapeCast SX A1 h := rfl
theorem gl_eq (h : S1x1024x1024.ShapeCasts SG) : gl G = shapeCast SG G h := rfl

/-- The distance array at pixel p: the square root of zero plus the sum over the 32 channels of the
    squared shifted differences; row k of pixel p in the transposed [1048576, 32] layout is entry (k, p)
    of the flattened array, by computation. -/
theorem v9_pixel (p : Fin P) : val_main_v9 (F := Ideal) A0 A1 (ix1 p) = D (X0 A0) (X1 A1) p := by
  rw [val_main_v9_apply, val_main_v8_apply, val_main_cst_0_apply]
  unfold D dist
  rw [Ideal.hostUnary_sqrt_def, Ideal.ofBits_def, Ideal.ofBits_zero_f32, zero_add]
  rfl

/-- The in-range masks at pixel p (the program computes the mask twice). -/
theorem v24_pixel (p : Fin P) : val_main_v24 (F := Ideal) A0 A1 (ix1 p) = inRange (D (X0 A0) (X1 A1) p) := by
  rw [val_main_v24_apply, val_main_v21_apply, val_main_v23_apply, val_main_v20_apply, val_main_v22_apply,
    val_main_cst_3_apply, val_main_cst_4_apply, v9_pixel]
  rfl

theorem v46_pixel (p : Fin P) : val_main_v46 (F := Ideal) A0 A1 (ix1 p) = inRange (D (X0 A0) (X1 A1) p) := by
  rw [val_main_v46_apply, val_main_v43_apply, val_main_v45_apply, val_main_v42_apply, val_main_v44_apply,
    val_main_cst_11_apply, val_main_cst_12_apply, v9_pixel]
  rfl

/-- The clamped bin arrays at pixel p (computed twice as well). -/
theorem v29_pixel (p : Fin P) : val_main_v29 (F := Ideal) A0 A1 (ix1 p) = binOf (D (X0 A0) (X1 A1) p) := by
  rw [val_main_v29_apply, val_main_call0_v4_apply, val_main_call0_v3_apply, val_main_c_7_apply,
    val_main_call0_v2_apply, val_main_call0_v1_apply, val_main_call0_v0_apply, val_main_c_6_apply,
    val_main_v28_apply, val_main_v27_apply, val_main_v26_apply, val_main_v25_apply, val_main_cst_5_apply, v9_pixel]
  rfl

theorem v51_pixel (p : Fin P) : val_main_v51 (F := Ideal) A0 A1 (ix1 p) = binOf (D (X0 A0) (X1 A1) p) := by
  rw [val_main_v51_apply, val_main_call1_v4_apply, val_main_call1_v3_apply, val_main_c_15_apply,
    val_main_call1_v2_apply, val_main_call1_v1_apply, val_main_call1_v0_apply, val_main_c_14_apply,
    val_main_v50_apply, val_main_v49_apply, val_main_v48_apply, val_main_v47_apply, val_main_cst_13_apply, v9_pixel]
  rfl

theorem idx_v38 (p : Fin P) : idx_main_v38 (ix2 p (0 : Fin 1)) = ix1 p := by
  funext a; refine Fin.ext ?_
  match a with
  | ⟨0, _⟩ => rfl

theorem idx_v60 (p : Fin P) : idx_main_v60 (ix2 p (0 : Fin 1)) = ix1 p := by
  funext a; refine Fin.ext ?_
  match a with
  | ⟨0, _⟩ => rfl

/-- The scatter's index column at row p: the bin again, because the wrap of a negative index leaves a
    clamped bin alone. -/
theorem v38_pixel (p : Fin P) :
    val_main_v38 (F := Ideal) A0 A1 (ix2 p (0 : Fin 1)) = binOf (D (X0 A0) (X1 A1) p) := by
  rw [val_main_v38_apply, idx_v38, val_main_v37_apply, val_main_v34_apply, val_main_v36_apply, val_main_v33_apply,
    val_main_v35_apply, val_main_c_9_apply, val_main_c_10_apply, v29_pixel]
  exact wrap_clamp _

theorem v60_pixel (p : Fin P) :
    val_main_v60 (F := Ideal) A0 A1 (ix2 p (0 : Fin 1)) = binOf (D (X0 A0) (X1 A1) p) := by
  rw [val_main_v60_apply, idx_v60, val_main_v59_apply, val_main_v56_apply, val_main_v58_apply, val_main_v55_apply,
    val_main_v57_apply, val_main_c_17_apply, val_main_c_18_apply, v51_pixel]
  exact wrap_clamp _

/-- The label masks at pixel p. -/
theorem v12_pixel (p : Fin P) : val_main_v12 (F := Ideal) G (ix1 p) = isPos (gl G (ix1 p)) := by
  rw [val_main_v12_apply, val_main_v11_apply, val_main_c_apply]
  rfl

theorem v13_pixel (p : Fin P) : val_main_v13 (F := Ideal) G (ix1 p) = isNeg (gl G (ix1 p)) := by
  rw [val_main_v13_apply, v12_pixel]
  exact not_bit _

/-- The two update arrays at pixel p: the pixel's weights. -/
theorem v31_pixel (p : Fin P) :
    val_main_v31 (F := Ideal) A0 A1 G (ix1 p) = wPos (X0 A0) (X1 A1) (gl G) p := by
  rw [val_main_v31_apply, val_main_v30_apply, v12_pixel, v24_pixel]
  exact uitofp_bit _

theorem v53_pixel (p : Fin P) :
    val_main_v53 (F := Ideal) A0 A1 G (ix1 p) = wNeg (X0 A0) (X1 A1) (gl G) p := by
  rw [val_main_v53_apply, val_main_v52_apply, v13_pixel, v46_pixel]
  exact uitofp_bit _

end

end Cert.Hist.Ref

end
-- ==== Proof.LibScatterHist.lean ====
/-
  The accumulating scatter of E update values into a vector of N entries, where update p is added
  at the entry named by the p-th row of an [E, 1] array of signed machine integers, read at one
  entry b: it is the old entry plus the sum of those updates whose index, read as a signed integer,
  equals b.  An update whose index is negative or at least N lands nowhere and is dropped, which the
  formula already says because no b below N equals such an index.
-/
import Idealize.ShloMosaic.PureOps.Ideal
import Idealize.ShloMosaic.Lib.ValueIdx
import proofs.«134737_j32444182954404_2_alg».proof.ReferenceIdeal

noncomputable section

open scoped BigOperators

namespace Cert.Hist

open Idealize.ShloMosaic Idealize.ShloMosaic.ValueIdx

/-- The dimension numbers of a scatter through one column of indices: the operand's only axis is
    addressed by the index and carries no window, and the updates have no window axes. -/
abbrev histDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)

/-- The window of update j starts, on the operand's axis, at the j-th index read signed. -/
theorem histDims_start (j : (⟨1, ![E]⟩ : Shape).Idx) (idx : IVec ⟨2, ![E, 1]⟩ w) (a : Fin 1) :
    (histDims N E wf).start j idx a = (idx (ix2 (j 0) (0 : Fin 1))).toInt := by
  obtain rfl : a = 0 := Subsingleton.elim _ _
  unfold ScatterDims.start
  rw [dif_pos (show (0 : Fin 1) ∈ (histDims N E wf).scatterDimsToOperandDims from List.mem_singleton.mpr rfl)]
  have hsi : (histDims N E wf).siIdx j ⟨List.idxOf (0 : Fin 1) (histDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's axis is an inserted one, so the window coordinate on it is zero. -/
theorem histDims_window (j : (⟨1, ![E]⟩ : Shape).Idx) (a : Fin 1) :
    (histDims N E wf).window j a = 0 := by
  unfold ScatterDims.window
  rw [dif_neg]
  intro h
  obtain rfl : a = 0 := Subsingleton.elim _ _
  have := (List.mem_filter.mp h).2
  simp at this

/-- Where update j lands: at the entry its index names when that is inside [0, N), nowhere otherwise. -/
theorem histDims_resultIdx_eq_some (j : (⟨1, ![E]⟩ : Shape).Idx) (idx : IVec ⟨2, ![E, 1]⟩ w) (b : Fin N) :
    (histDims N E wf).resultIdx? j idx = some (ix1 b) ↔ (idx (ix2 (j 0) (0 : Fin 1))).toInt = (b.val : Int) := by
  unfold ScatterDims.resultIdx?
  constructor
  · intro h
    split at h
    · rename_i hr
      have h0 := congrFun (Option.some.inj h) (0 : Fin 1)
      have h1 := congrArg Fin.val h0
      have hr0 := hr (0 : Fin 1)
      rw [histDims_start, histDims_window] at hr0
      simp only [histDims_start, histDims_window] at h1
      change _ = b.val at h1
      omega
    · exact absurd h (by simp)
  · intro h
    have hr : ∀ a, 0 ≤ (histDims N E wf).start j idx a + (histDims N E wf).window j a ∧
        (histDims N E wf).start j idx a + (histDims N E wf).window j a < (⟨1, ![N]⟩ : Shape).size a := by
      intro a
      obtain rfl : a = 0 := Subsingleton.elim _ _
      rw [histDims_start, histDims_window, h]
      have := b.isLt
      refine ⟨by omega, ?_⟩
      show (b.val : Int) + ((0 : Nat) : Int) < ((N : Nat) : Int)
      omega
    rw [dif_pos hr]
    congr 1
    funext a
    obtain rfl : a = 0 := Subsingleton.elim _ _
    refine Fin.ext ?_
    show ((histDims N E wf).start j idx 0 + ((histDims N E wf).window j 0 : Nat)).toNat = b.val
    rw [histDims_start, histDims_window, h]
    omega

/-- A rank-one index is its coordinate. -/
private def idxEquiv1 {n : Nat} : (⟨1, ![n]⟩ : Shape).Idx ≃ Fin n where
  toFun i := i 0
  invFun := ix1
  left_inv i := (eq_ix1 i).symm
  right_inv _ := rfl

/-- THE SCATTER READ AT ENTRY b: the old entry plus the updates whose index, read signed, is b. -/
theorem scatterAdd_entry_gen (x : (⟨1, ![N]⟩ : Shape).Idx → EReal) (idx : IVec ⟨2, ![E, 1]⟩ w)
    (upd : (⟨1, ![E]⟩ : Shape).Idx → EReal) (b : Fin N) :
    Ideal.hostScatterAdd (histDims N E wf) x idx upd (ix1 b)
      = x (ix1 b) + ∑ p : Fin E,
          if (idx (ix2 p (0 : Fin 1))).toInt = (b.val : Int) then upd (ix1 p) else 0 := by
  unfold Ideal.hostScatterAdd
  congr 1
  rw [Finset.sum_filter, ← Equiv.sum_comp (idxEquiv1 (n := E)).symm]
  refine Finset.sum_congr rfl fun p _ => ?_
  show (if (histDims N E wf).resultIdx? (ix1 p) idx = some (ix1 b) then upd (ix1 p) else 0) = _
  by_cases h : (idx (ix2 p (0 : Fin 1))).toInt = (b.val : Int)
  · rw [if_pos h, if_pos ((histDims_resultIdx_eq_some wf (ix1 p) idx b).mpr h)]
  · rw [if_neg h, if_neg (fun h' => h ((histDims_resultIdx_eq_some wf (ix1 p) idx b).mp h'))]

end

/-- The same at the reference program's scatter record: 1048576 updates into 100 entries. -/
theorem scatterAdd_entry [Cert.ReferenceIdeal.Facts₀] (x : (⟨1, ![100]⟩ : Shape).Idx → EReal)
    (idx : IVec ⟨2, ![1048576, 1]⟩ 32) (upd : (⟨1, ![1048576]⟩ : Shape).Idx → EReal) (b : Fin 100) :
    Ideal.hostScatterAdd Cert.ReferenceIdeal.scatter_S100_S1048576x1_S1048576_n_0_0_1 x idx upd (ix1 b)
      = x (ix1 b) + ∑ p : Fin 1048576,
          if (idx (ix2 p (0 : Fin 1))).toInt = (b.val : Int) then upd (ix1 p) else 0 :=
  scatterAdd_entry_gen Cert.ReferenceIdeal.Facts₀.scatter_S100_S1048576x1_S1048576_n_0_0_1_wf x idx upd b

end Cert.Hist

end
-- ==== Proof.RefHist.lean ====
/-
  The reference's two histograms, read one bin at a time.

  The accumulating scatter starts from a zero vector of 100 entries and adds pixel p's weight at the
  entry its bin names.  Read at entry b it is therefore the sum over the pixels of the weight when the
  bin's signed value is b and of zero otherwise, which is the sum of the row indicator times the weight.
-/
import proofs.«134737_j32444182954404_2_alg».proof.Proof.RefPixel
import proofs.«134737_j32444182954404_2_alg».proof.Proof.LibScatterHist

noncomputable section

open scoped BigOperators

namespace Cert.Hist.Ref

open Idealize.ShloMosaic Idealize.ShloMosaic.ValueIdx Cert.ReferenceIdeal Cert.ReferenceIdeal.ReadP

section
variable (A0 A1 : (⟨S1x32x1024x1024, .f32⟩ : BufTy).Contents (Elt Ideal))
  (G : (⟨S1x1024x1024, .i32⟩ : BufTy).Contents (Elt Ideal))

/-- The program's accumulating scatter read at entry b, for any operand, index column and updates. -/
theorem host_scatter_entry (x : (⟨1, ![100]⟩ : Shape).Idx → EReal) (idx : IVec ⟨2, ![1048576, 1]⟩ 32)
    (upd : (⟨1, ![1048576]⟩ : Shape).Idx → EReal) (b : Fin 100) :
    Host.scatterAdd (F := Ideal) (φ := .f32) scatter_S100_S1048576x1_S1048576_n_0_0_1 x idx upd (ix1 b)
      = x (ix1 b) + ∑ p : Fin 1048576,
          if (idx (ix2 p (0 : Fin 1))).toInt = (b.val : Int) then upd (ix1 p) else 0 := by
  unfold Host.scatterAdd
  rw [Ideal.hostScatterAdd_def]
  exact scatterAdd_entry x idx upd b

/-- The positive histogram at bin b. -/
theorem v39_entry (b : Fin 100) :
    val_main_v39 (F := Ideal) A0 A1 G (ix1 b) = histPos (X0 A0) (X1 A1) (gl G) b.val := by
  unfold val_main_v39
  rw [host_scatter_entry, val_main_v32_apply, val_main_cst_8_apply, Ideal.ofBits_def, Ideal.ofBits_zero_f32, zero_add]
  unfold histPos
  refine Finset.sum_congr rfl fun p _ => ?_
  rw [v38_pixel, v31_pixel]
  exact (hot_mul b _ (binOf_range _).1 (binOf_range _).2 _).symm

/-- The negative histogram at bin b. -/
theorem v61_entry (b : Fin 100) :
    val_main_v61 (F := Ideal) A0 A1 G (ix1 b) = histNeg (X0 A0) (X1 A1) (gl G) b.val := by
  unfold val_main_v61
  rw [host_scatter_entry, val_main_v54_apply, val_main_cst_16_apply, Ideal.ofBits_def, Ideal.ofBits_zero_f32, zero_add]
  unfold histNeg
  refine Finset.sum_congr rfl fun p _ => ?_
  rw [v60_pixel, v53_pixel]
  exact (hot_mul b _ (binOf_range _).1 (binOf_range _).2 _).symm

end

end Cert.Hist.Ref

end
-- ==== Proof.RefTail.lean ====
/-
  The reference's last operations are the loss.

  After its two normalised histograms the reference program compares the negative one with zero, takes the
  logarithm of it where positive (of one elsewhere), subtracts the positive one, multiplies by the
  negative one, zeroes the bins where the negative one is not positive, sums the 100 bins, divides by a
  hundred and adds one.  That is the loss function of the two normalised histograms, operation for operation.
-/
import proofs.«134737_j32444182954404_2_alg».proof.Proof.RefRead
import proofs.«134737_j32444182954404_2_alg».proof.Proof.Tail

noncomputable section

namespace Cert.Hist.Ref

open Idealize.ShloMosaic Cert.ReferenceIdeal Cert.ReferenceIdeal.ReadP

/-- The reference's result is the loss of its own two normalised histograms. -/
theorem v75_tail (A0 A1 : (⟨S1x32x1024x1024, .f32⟩ : BufTy).Contents (Elt Ideal))
    (G : (⟨S1x1024x1024, .i32⟩ : BufTy).Contents (Elt Ideal)) :
    val_main_v75 (F := Ideal) A0 A1 G
      = tail (val_main_v41 (F := Ideal) A0 A1 G) (val_main_v63 (F := Ideal) A0 A1 G) := by
  unfold val_main_v75 val_main_v74 val_main_v73 val_main_v72 val_main_v71 val_main_v70 val_main_v69 val_main_v68
    val_main_v67 val_main_v66 val_main_v65 val_main_v64 val_main_call3_v1 val_main_call3_v0 val_main_call2_v1
    val_main_call2_v0 val_main_cst_19 val_main_cst_20 val_main_cst_21 val_main_cst_22 val_main_cst_23
    val_main_cst_24 val_main_cst_25
  generalize val_main_v41 (F := Ideal) A0 A1 G = p
  generalize val_main_v63 (F := Ideal) A0 A1 G = q
  rfl

end Cert.Hist.Ref

end
-- ==== Proof.LibBoolCount.lean ====
/-
  Counting with machine integers.  A bit extended to a 32-bit word is the word 0 or 1.  Adding n such
  words in 32-bit arithmetic gives, modulo 2^32, the number of ones among them; that number is at
  most n, so when n is below 2^31 the machine sum neither wraps nor turns negative, and its signed
  reading is the true count.  Converted to a real number, the machine sum of the 1048576 words of a
  flat array of bits is therefore the sum over the positions of each bit read as the real 0 or 1.
-/
import Idealize.ShloMosaic.PureOps.Ideal
import Idealize.ShloMosaic.PureOps.Reduce
import Idealize.ShloMosaic.Lib.ValueIdx
import proofs.«134737_j32444182954404_2_alg».proof.Proof.Spec

noncomputable section

open scoped BigOperators

namespace Cert.Hist

open Idealize.ShloMosaic Idealize.ShloMosaic.ValueIdx

/-- Extending a bit to 32 bits keeps its value as a natural number. -/
theorem bit_setWidth_toNat (c : BitVec 1) : (c.setWidth 32).toNat = c.toNat := by
  have := c.isLt
  rw [BitVec.toNat_setWidth]
  omega

/-- The 32-bit sum of the extended bits over a finite set is, modulo 2^32, the number of ones. -/
theorem fold_bits_toNat {ι : Type} (s : Finset ι) (f : ι → BitVec 1) :
    (s.fold IntOp.addi 0#32 (fun i => (f i).setWidth 32)).toNat = (∑ i ∈ s, (f i).toNat) % 2 ^ 32 := by
  induction s using Finset.cons_induction with
  | empty => rfl
  | cons a s ha ih =>
    rw [Finset.fold_cons, Finset.sum_cons]
    show ((f a).setWidth 32 + s.fold IntOp.addi 0#32 (fun i => (f i).setWidth 32)).toNat = _
    rw [BitVec.toNat_add, ih, bit_setWidth_toNat, Nat.add_mod_mod]

/-- The number of ones among the bits over a finite set is at most the size of the set. -/
theorem sum_bits_le_card {ι : Type} (s : Finset ι) (f : ι → BitVec 1) : ∑ i ∈ s, (f i).toNat ≤ s.card := by
  have h := Finset.sum_le_card_nsmul s (fun i => (f i).toNat) 1 (fun i _ => by have := (f i).isLt; omega)
  simpa using h

/-- Over a set of fewer than 2^31 positions the machine sum, read signed, is the number of ones. -/
theorem fold_bits_toInt {ι : Type} (s : Finset ι) (f : ι → BitVec 1) (hs : s.card < 2 ^ 31) :
    (s.fold IntOp.addi 0#32 (fun i => (f i).setWidth 32)).toInt = ((∑ i ∈ s, (f i).toNat : Nat) : Int) := by
  have h1 := fold_bits_toNat s f
  have h2 := sum_bits_le_card s f
  rw [BitVec.toInt_eq_toNat_cond, h1]
  split <;> omega

/-- A real-number sum over a finite set, carried to the extended reals term by term. -/
theorem coe_sum_ereal {ι : Type} (s : Finset ι) (g : ι → ℝ) :
    ((∑ i ∈ s, g i : ℝ) : EReal) = ∑ i ∈ s, (g i : EReal) := by
  induction s using Finset.cons_induction with
  | empty => simp
  | cons a s ha ih => rw [Finset.sum_cons, Finset.sum_cons, EReal.coe_add, ih]

/-- A bit counted is its value as a natural number, as a real. -/
theorem cnt_eq (c : BitVec 1) : cnt c = ((c.toNat : ℝ) : EReal) := by
  have h : (c.setWidth 32).toInt = (c.toNat : Int) := by
    have := c.isLt
    rw [BitVec.toInt_eq_toNat_cond, bit_setWidth_toNat]
    split <;> omega
  unfold cnt
  rw [h, Int.cast_natCast]

/-- A rank-one index is its coordinate. -/
private def idxEquiv1 {n : Nat} : (⟨1, ![n]⟩ : Shape).Idx ≃ Fin n where
  toFun i := i 0
  invFun := ix1
  left_inv i := (eq_ix1 i).symm
  right_inv _ := rfl

/-- THE COUNT: the 32-bit sum of the 1048576 extended bits of a flat array, converted to a real, is
    the sum over the positions of each bit counted. -/
theorem count_words (bit : SG.Idx → BitVec 1) (h : SG.ReducesTo [0] S0) (hu : 0 < S0.numel) (hlt : 1 < 32) :
    sitofp (F := Ideal) .f32 (Host.reduce IntOp.addi (extui 32 bit hlt) (constantI S0 32 0#32) h hu) ix0
      = ∑ p : Fin 1048576, cnt (bit (ix1 p)) := by
  have hcard : (Finset.univ : Finset SG.Idx).card < 2 ^ 31 := by
    rw [Finset.card_univ, Fintype.card_congr (idxEquiv1 (n := 1048576)), Fintype.card_fin]
    norm_num
  have hfold : Host.reduce IntOp.addi (extui 32 bit hlt) (constantI S0 32 0#32) h hu ix0
      = (Finset.univ : Finset SG.Idx).fold IntOp.addi 0#32 (fun i => (bit i).setWidth 32) := by
    rw [Host.reduce_eq_fold, Finset.filter_true_of_mem (fun i _ => (eq_ix0 _).trans (eq_ix0 _).symm)]
    rfl
  show (((Host.reduce IntOp.addi (extui 32 bit hlt) (constantI S0 32 0#32) h hu ix0).toInt : ℝ) : EReal) = _
  rw [hfold, fold_bits_toInt _ _ hcard, Int.cast_natCast, Nat.cast_sum, coe_sum_ereal,
    ← Equiv.sum_comp (idxEquiv1 (n := 1048576)).symm]
  refine Finset.sum_congr rfl fun p _ => ?_
  rw [cnt_eq]
  rfl

end Cert.Hist

end
-- ==== Proof.RefValue.lean ====
/-
  The reference program's value as the loss of the two normalised histograms.

  The positive size is the converted count of the positive label bits and the negative size that of the
  negative ones.  Dividing each histogram, bin by bin, by its size gives the two normalised histograms of
  the flattened arrays, and the reference's last operations are the loss of those two.
-/
import proofs.«134737_j32444182954404_2_alg».proof.Proof.RefHist
import proofs.«134737_j32444182954404_2_alg».proof.Proof.RefTail
import proofs.«134737_j32444182954404_2_alg».proof.Proof.LibBoolCount

noncomputable section

open scoped BigOperators

namespace Cert.Hist.Ref

open Idealize.ShloMosaic Idealize.ShloMosaic.ValueIdx Cert.ReferenceIdeal Cert.ReferenceIdeal.Gen Cert.ReferenceIdeal.ReadP

section
variable (A0 A1 : (⟨S1x32x1024x1024, .f32⟩ : BufTy).Contents (Elt Ideal))
  (G : (⟨S1x1024x1024, .i32⟩ : BufTy).Contents (Elt Ideal))

/-- The positive size: the count of the pixels whose label is zero. -/
theorem v16_eq : val_main_v16 (F := Ideal) G ix0 = sizePos (gl G) := by
  unfold val_main_v16 val_main_v15 val_main_v14 val_main_c_1 sizePos
  refine (count_words (val_main_v12 (F := Ideal) G) reducesTo_S1048576_S_d0 h_S_ natLt_1_32).trans ?_
  refine Finset.sum_congr rfl fun p _ => ?_
  rw [v12_pixel]

/-- The negative size: the count of the pixels whose label is not zero. -/
theorem v19_eq : val_main_v19 (F := Ideal) G ix0 = sizeNeg (gl G) := by
  unfold val_main_v19 val_main_v18 val_main_v17 val_main_c_2 sizeNeg
  refine (count_words (val_main_v13 (F := Ideal) G) reducesTo_S1048576_S_d0 h_S_ natLt_1_32).trans ?_
  refine Finset.sum_congr rfl fun p _ => ?_
  rw [v13_pixel]

/-- A normalised histogram at bin b: the histogram's row b over the size. -/
theorem normPos_ix1 (x y : SX.Idx → EReal) (g : SG.Idx → BitVec 32) (b : Fin 100) :
    normPos x y g (ix1 b) = Ideal.div (histPos x y g b.val) (sizePos g) := rfl

theorem normNeg_ix1 (x y : SX.Idx → EReal) (g : SG.Idx → BitVec 32) (b : Fin 100) :
    normNeg x y g (ix1 b) = Ideal.div (histNeg x y g b.val) (sizeNeg g) := rfl

/-- The reference's positive normalised histogram is that of the flattened arrays. -/
theorem v41_eq : val_main_v41 (F := Ideal) A0 A1 G = normPos (X0 A0) (X1 A1) (gl G) := by
  funext b
  obtain ⟨b0, rfl⟩ : ∃ b0, b = ix1 b0 := ⟨b 0, eq_ix1 b⟩
  rw [val_main_v41_apply, val_main_v40_apply, v39_entry, Ideal.hostDivf_def, normPos_ix1]
  exact congrArg (Ideal.div _) (v16_eq G)

/-- The reference's negative normalised histogram likewise. -/
theorem v63_eq : val_main_v63 (F := Ideal) A0 A1 G = normNeg (X0 A0) (X1 A1) (gl G) := by
  funext b
  obtain ⟨b0, rfl⟩ : ∃ b0, b = ix1 b0 := ⟨b 0, eq_ix1 b⟩
  rw [val_main_v63_apply, val_main_v62_apply, v61_entry, Ideal.hostDivf_def, normNeg_ix1]
  exact congrArg (Ideal.div _) (v19_eq G)

/-- The reference's value: the loss of the two normalised histograms of the flattened arrays. -/
theorem v75_eq :
    val_main_v75 (F := Ideal) A0 A1 G
      = tail (normPos (X0 A0) (X1 A1) (gl G)) (normNeg (X0 A0) (X1 A1) (gl G)) := by
  rw [v75_tail, v41_eq, v63_eq]

/-- The same with the flattened arrays written as reshapes, for any proofs of the reshapes' shape facts. -/
theorem v41_eq_cast (h : S1x32x1024x1024.ShapeCasts SX) (h' : S1x1024x1024.ShapeCasts SG) :
    val_main_v41 (F := Ideal) A0 A1 G = normPos (shapeCast SX A0 h) (shapeCast SX A1 h) (shapeCast SG G h') :=
  v41_eq A0 A1 G

theorem v63_eq_cast (h : S1x32x1024x1024.ShapeCasts SX) (h' : S1x1024x1024.ShapeCasts SG) :
    val_main_v63 (F := Ideal) A0 A1 G = normNeg (shapeCast SX A0 h) (shapeCast SX A1 h) (shapeCast SG G h') :=
  v63_eq A0 A1 G

theorem v75_eq_cast (h : S1x32x1024x1024.ShapeCasts SX) (h' : S1x1024x1024.ShapeCasts SG) :
    val_main_v75 (F := Ideal) A0 A1 G
      = tail (normPos (shapeCast SX A0 h) (shapeCast SX A1 h) (shapeCast SG G h'))
          (normNeg (shapeCast SX A0 h) (shapeCast SX A1 h) (shapeCast SG G h')) :=
  v75_eq A0 A1 G

end

end Cert.Hist.Ref

end
-- ==== Proof.lean ====
/-
  The loss of a change-detection histogram kernel against its plain reference, on the extended reals.

  Both programs take two feature arrays of 32 channels over 1024 × 1024 pixels and an integer label per pixel.
  For each pixel they take the distance between the two channel vectors (with a small shift added to each
  difference), put the pixels whose distance lies in [0, 1] into 100 bins by ⌊100·distance⌋, separately for the
  pixels labelled 0 (positive) and the others (negative), normalise each histogram by the number of positive
  (negative) pixels, and return 1 plus the mean over the bins of q·(log q − p) where q > 0 (p the positive, q
  the negative normalised histogram).

  The reference builds each histogram by an accumulating scatter of 0/1 weights and counts the pixels by an
  integer sum that it converts to a float.  The kernel walks the pixels in 64 blocks of 16384, in two runs of
  32 blocks; in each block it multiplies a one-hot matrix (128 rows: the bins, padded) by the two rows of
  weights, adds the product's two columns to running histograms and adds the block's pixel counts, computed as
  float sums, to running counts; each run restarts from zero and writes its totals to its own row, and the host
  lines after it add the two rows, keep the first 100 bins and divide.

  On the extended reals both are the same function (Spec: normPos, normNeg; Tail: the loss of them):
    - a pixel's distance, range bit, bin and weights are the same expressions on both sides (KPay / RefPixel);
    - the scatter's entry b is the sum over the pixels of [bin = b]·weight, which is also what the one-hot
      products add up to, block by block (KMat, KSums, KNorm / LibScatterHist, RefHist);
    - the integer count does not wrap (at most 2^20 ones), so its conversion is the float count
      (LibBoolCount / KCnt);
    - a sum over the pixels is the sum over the runs, the blocks of a run and the pixels of a block
      (LibPixelSum), in any order: addition of extended reals is commutative and associative, and no
      finiteness of the inputs is used.
  The frames of the two kernel programs are the generated ones; the reference's is its run with the result
  dropped.
-/
import proofs.«134737_j32444182954404_2_alg».proof.Defs
import proofs.«134737_j32444182954404_2_alg».proof.Proof.Gen.Kernel
import proofs.«134737_j32444182954404_2_alg».proof.Proof.Gen.Kernel.Frame
import proofs.«134737_j32444182954404_2_alg».proof.Proof.Gen.KernelIdeal
import proofs.«134737_j32444182954404_2_alg».proof.Proof.Gen.KernelIdeal.Frame
import proofs.«134737_j32444182954404_2_alg».proof.Proof.Gen.ReferenceIdeal
import proofs.«134737_j32444182954404_2_alg».proof.Proof.Gen.Pre_finite_inputs
import proofs.«134737_j32444182954404_2_alg».proof.Proof.KValue
import proofs.«134737_j32444182954404_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs leave the loss function of the specification's two normalised histograms of the same
    flattened arrays. -/
theorem algebraic : Cert.algebraic_KernelIdeal_ReferenceIdeal := by
  intro m ρ m' ρ' _ hagree
  refine ⟨fun c => Cert.Hist.KV.kLoss m c, Cert.Hist.KV.run_tail m ρ, ?_⟩
  refine (θ_run Cert.ReferenceIdeal.defs _ _).mono (fun _ h c => ⟨(h c).1.trans ?_, (h c).2⟩)
    (Cert.ReferenceIdeal.ValueP.run (F := Ideal) m' ρ')
  have hX : Cert.KernelIdeal.S1x32x1024x1024.ShapeCasts Cert.Hist.SX := by decide
  have hG : Cert.KernelIdeal.S1x1024x1024.ShapeCasts Cert.Hist.SG := by decide
  rw [Cert.ReferenceIdeal.ReadP.val_main_v75_eq, (hagree c).1, (hagree c).2.1, (hagree c).2.2]
  show _ = Cert.Hist.KV.kLoss m c
  rw [Cert.Hist.KV.kLoss_eq, Cert.Hist.KV.X0_eq, Cert.Hist.KV.X1_eq, Cert.Hist.KV.gl_eq m c hG]
  exact Cert.Hist.Ref.v75_eq_cast _ _ _ hX hG

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
